-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S1x128 : Shape := ⟨2, ![1, 128]⟩
abbrev S2048x2048 : Shape := ⟨2, ![2048, 2048]⟩
abbrev S2048x128 : Shape := ⟨2, ![2048, 128]⟩
abbrev S2048x1 : Shape := ⟨2, ![2048, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S1x128, .f32⟩
  | .hbm, ⟨9, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S2048x2048, .f32⟩
  | .local _ .vmem, ⟨5, _⟩ => ⟨S2048x2048, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond3 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S8192x1_S8192x128_0_1 : S8192x1.BroadcastsInDim S8192x128 (![0, 1] : Fin 2 → Fin S8192x128.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S8192x128_S128x128_S8192x128_1_0_0_1_n_n_wf : DotDims.WF S8192x128 S128x128 S8192x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .f32 = 32 ∨ (Rect.block (s := S8192x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S8192x128.size a
  hwx1_4 : ∀ i : grid1.Coords, EltTy.bits .f32 = 32 ∨ (Rect.block (s := S8192x128) S2048x128.size (cc1_transform_4 i) (hinb1_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x128, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsRegion0.lean ====
/-
  The degree kernel's region (the first Pallas call), at any float instance and at any contents `V` of the core's
  buffers when the region is entered.

  Each of the sixteen grid points takes a block of 512 full rows of the adjacency matrix, sums every row, adds
  one, and stores the masked inverse square root as a 512 × 1 column block of the degree vector. The body reads
  its one input block whole and stores its one output block whole, and keeps nothing between points. So after the
  body at point `t` the output's staging buffer holds the body's one payload of the input block at `t`
  (`deg0`), and the region's invariant is the untouched scoped rest with the generator register.
-/
import proofs.«103349_j29557964931202_1_alg».proof.Proof.Gen.Kernel.Launch
import proofs.«103349_j29557964931202_1_alg».proof.Proof.Gen.Kernel.Skeleton
import proofs.«103349_j29557964931202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency rows' staging buffer holds their block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 8192 block and the whole 512 × 1 column, as the body's rectangles. -/
abbrev rA0 : Rect S512x8192 := Rect.unit (s := S512x8192) ![0, 0] S512x8192.size inb_S512x8192_S512x8192_0_0
abbrev rD0 : Rect S512x1 := Rect.unit (s := S512x1) ![0, 0] S512x1.size inb_S512x1_S512x1_0_0

/-- What the body leaves in the degree column's staging buffer: its one store, of the payload of the rows. -/
def deg0 (x0 : Vec F S512x8192 .f32) : Vec F S512x1 .f32 :=
  View.canon [⟨rD0, k0_pay1 (View.ld x0 rA0)⟩]

/-- The one store covers the column block. -/
theorem cover0 (p0 : Vec F S512x1 .f32) (y : S512x1.Idx) :
    ∃ pc ∈ ([⟨rD0, p0⟩] : List (View.Piece (Elt F) S512x1 .f32)), y ∈ pc.1.set :=
  View.cover_of_tiled [⟨rD0, p0⟩] S512x1.size (by rfl) y

set_option maxHeartbeats 1000000 in
/-- The body on whole staging memrefs, the rows' at contents `x0` and the column's at anything, runs to the
    continuation holding the rows as they were and the column at `deg0 x0`. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (deg0 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The region's proof data on core `c`: the arrays as the region finds them; after the body at point `t` the
    rows' buffer at its block and the column's at `deg0` of it; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => deg0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = deg0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the rows' memref holds their block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRuns1.lean ====
/-
  What the runs of the layer kernel's region (the second Pallas call) share, at any float instance.

  The grid is 4 × 4: point (i, k) takes the 2048 × 2048 block (i, k) of the adjacency matrix, block k of the scaled
  features, block i of the inverse-square-root column and the bias row, and accumulates in a 2048 × 128 scratch that
  lives across the four points of a row of blocks: zeroed when k = 0, increased by the block product at every k,
  increased once more by the scaled features' own block when i = k (the self-loop), and at k = 3 scaled by the
  column, shifted by the bias and stored into the output block i, which the pipeline writes back then and only then.
  Here: the three conditions as the body computes them and in closed form over the linear point t = 4 i + k; where
  the output is idle; the staging and scratch memrefs at a point; the invariant's spelling; each input's block.
-/
import proofs.«103349_j29557964931202_1_alg».proof.Proof.Gen.Kernel.Launch
import proofs.«103349_j29557964931202_1_alg».proof.Proof.Gen.Kernel.Skeleton
import proofs.«103349_j29557964931202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three conditions -/

/-- `k = 0`, as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- `i = k`, as the body computes it. -/
abbrev cond1_1 (i : grid1.Coords) : Prop := (Scalar.cmpi .ne (Scalar.extui (Scalar.cmpi .eq (BitVec.ofNat 32 (i 0).val) (BitVec.ofNat 32 (i 1).val))) 0#32) = 1#1
/-- It holds at the points whose quotient and remainder by 4 agree. -/
theorem hcond1_1 : ∀ t : Fin cfg1.N, cond1_1 (grid1.coords t) ↔ t.val / 4 = t.val % 4 :=
  (by decide +kernel : ∀ t : Fin grid1.N, cond1_1 (grid1.coords t) ↔ t.val / 4 = t.val % 4)

/-- `k = 3` (the last block of the row), as the body computes it. -/
abbrev cond1_2 (i : grid1.Coords) : Prop := k1_cond3 i = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the row's last block the output is idle: nothing is stored into it, -/
theorem idleAt1_4 : ∀ t : Fin cfg1.N, ¬cond1_2 (grid1.coords t) → cfg1.idle 4 (grid1.coords t) = true := by decide +kernel
/-- and it is not written back. -/
theorem noFlush1_4 : ∀ t : Fin cfg1.N, ¬cond1_2 (grid1.coords t) → (cfg1.win 4).flush t = false := by decide +kernel
/-- At the row's last block it is live. -/
theorem liveAt1_4 : ∀ t : Fin cfg1.N, cond1_2 (grid1.coords t) → cfg1.idle 4 (grid1.coords t) = false := by decide +kernel

/-! ## The memrefs at a point -/

/-- One staging buffer of the output window, through which its contents are stated. -/
abbrev VO1 : View sig .tc .vmem S2048x128 .f32 := (Memref.whole cc1_stg4_0 : Memref sig .tc .vmem S2048x128 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S2048x128 .f32 := Memref.whole cc1_scratch0
abbrev VS1 : View sig .tc .vmem S2048x128 .f32 := scM1.view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The region's untouched rest, spelt out: the first call's four staging buffers at anything, the accumulator owned
    at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ (∃ d, owns (c : Thread nD τ) scM1 fullShare d)) ∗ (∃ r, prngReg c r)) := by
  unfold Pipeline.ΦA; rw [scopedRest1_eq]; simp only [scM1, owns_whole]; try rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.BitsCases1a.lean ====
/-
  The layer kernel's body run whole, in 3 of the six cases of its three conditions that the grid meets
  (A, B, C): each conditional decided by the case's hypotheses, every load and store stepped, and the pieces
  each buffer ends with found by the run itself.
-/
import proofs.«103349_j29557964931202_1_alg».proof.Proof.BitsRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point that is the row's first block (the accumulator is zeroed), on the diagonal (the self-loop's block is added), not the row's last block (the output is idle): on whole staging memrefs, the inputs at their contents, the idle output at contents handed back untouched, the accumulator at anything, it runs to the continuation holding the inputs as they were and the accumulator with its pieces written. The piece lists are the witness the run finds. -/
noncomputable def kernelRun1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point that is the row's first block (the accumulator is zeroed), off the diagonal, not the row's last block (the output is idle): on whole staging memrefs, the inputs at their contents, the idle output at contents handed back untouched, the accumulator at anything, it runs to the continuation holding the inputs as they were and the accumulator with its pieces written. The piece lists are the witness the run finds. -/
noncomputable def kernelRun1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point that is a later block of the row (the accumulator is carried), on the diagonal (the self-loop's block is added), not the row's last block (the output is idle): on whole staging memrefs, the inputs at their contents, the idle output at contents handed back untouched, the accumulator at what the point before left, it runs to the continuation holding the inputs as they were and the accumulator with its pieces written. The piece lists are the witness the run finds. -/
noncomputable def kernelRun1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.BitsCases1b.lean ====
/-
  The layer kernel's body run whole, in 3 of the six cases of its three conditions that the grid meets
  (D, E, G): each conditional decided by the case's hypotheses, every load and store stepped, and the pieces
  each buffer ends with found by the run itself.
-/
import proofs.«103349_j29557964931202_1_alg».proof.Proof.BitsCases1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point that is a later block of the row (the accumulator is carried), off the diagonal, not the row's last block (the output is idle): on whole staging memrefs, the inputs at their contents, the idle output at contents handed back untouched, the accumulator at what the point before left, it runs to the continuation holding the inputs as they were and the accumulator with its pieces written. The piece lists are the witness the run finds. -/
noncomputable def kernelRun1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point that is a later block of the row (the accumulator is carried), on the diagonal (the self-loop's block is added), the row's last block (the output block is stored): on whole staging memrefs, the inputs at their contents, the output at anything, the accumulator at what the point before left, it runs to the continuation holding the inputs as they were, the output with its pieces written and the accumulator with its pieces written. The piece lists are the witness the run finds. -/
noncomputable def kernelRun1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 1000000 in
/-- The body at a point that is a later block of the row (the accumulator is carried), off the diagonal, the row's last block (the output block is stored): on whole staging memrefs, the inputs at their contents, the output at anything, the accumulator at what the point before left, it runs to the continuation holding the inputs as they were, the output with its pieces written and the accumulator with its pieces written. The piece lists are the witness the run finds. -/
noncomputable def kernelRun1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.BitsFrame1.lean ====
/-
  The layer kernel's region (the second Pallas call) at any float instance and any entry contents `V`: what the
  output block and the accumulator hold after each grid point, the region's invariant, the proof data and the body
  obligation.

  After the body at linear point t = 4 i + k the accumulator holds what the case met there leaves in it, computed from
  the point's input blocks and, when k > 0, from what the point before left (`outsAt1`, by recursion on t); the output
  block holds the last case's store at k = 3 and is idle elsewhere. The invariant before a point hands the body the
  accumulator at the previous point's contents, and at anything before the first point.
-/
import proofs.«103349_j29557964931202_1_alg».proof.Proof.BitsCases1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In case A the accumulator's pieces cover it. -/
theorem scover1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) (y : S2048x128.Idx) :
    ∃ pc ∈ (kernelRun1_A c i arg2 harg2 arg3 harg3 arg4 harg4 arg5 harg5 arg6 harg6 arg7 harg7 hc0 hc1 hc2 x0 x1 x2 x3).2.1, y ∈ pc.1.set :=
  View.cover_of_tiledL (kernelRun1_A c i arg2 harg2 arg3 harg3 arg4 harg4 arg5 harg5 arg6 harg6 arg7 harg7 hc0 hc1 hc2 x0 x1 x2 x3).2.1 S2048x128.size (by sl_kernel_rfl) y

/-- What case A leaves in the accumulator: its pieces read back. -/
def sout1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) : Vec F S2048x128 .f32 :=
  VS1.read (Elt F) (VS1.writes (Elt F) VS1.junk (kernelRun1_A c i arg2 harg2 arg3 harg3 arg4 harg4 arg5 harg5 arg6 harg6 arg7 harg7 hc0 hc1 hc2 x0 x1 x2 x3).2.1)

/-- What case A leaves in the output block's buffer (nothing is stored: a placeholder nothing consults, the window being idle and not written back there). -/
def out1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) : Vec F S2048x128 .f32 :=
  VO1.read (Elt F) (VO1.writes (Elt F) VO1.junk (kernelRun1_A c i arg2 harg2 arg3 harg3 arg4 harg4 arg5 harg5 arg6 harg6 arg7 harg7 hc0 hc1 hc2 x0 x1 x2 x3).1)

/-- In case B the accumulator's pieces cover it. -/
theorem scover1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) (y : S2048x128.Idx) :
    ∃ pc ∈ (kernelRun1_B c i arg2 harg2 arg3 harg3 arg4 harg4 arg5 harg5 arg6 harg6 arg7 harg7 hc0 hc1 hc2 x0 x1 x2 x3).2.1, y ∈ pc.1.set :=
  View.cover_of_tiledL (kernelRun1_B c i arg2 harg2 arg3 harg3 arg4 harg4 arg5 harg5 arg6 harg6 arg7 harg7 hc0 hc1 hc2 x0 x1 x2 x3).2.1 S2048x128.size (by sl_kernel_rfl) y

/-- What case B leaves in the accumulator: its pieces read back. -/
def sout1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) : Vec F S2048x128 .f32 :=
  VS1.read (Elt F) (VS1.writes (Elt F) VS1.junk (kernelRun1_B c i arg2 harg2 arg3 harg3 arg4 harg4 arg5 harg5 arg6 harg6 arg7 harg7 hc0 hc1 hc2 x0 x1 x2 x3).2.1)

/-- What case B leaves in the output block's buffer (nothing is stored: a placeholder nothing consults, the window being idle and not written back there). -/
def out1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) : Vec F S2048x128 .f32 :=
  VO1.read (Elt F) (VO1.writes (Elt F) VO1.junk (kernelRun1_B c i arg2 harg2 arg3 harg3 arg4 harg4 arg5 harg5 arg6 harg6 arg7 harg7 hc0 hc1 hc2 x0 x1 x2 x3).1)

/-- In case C the accumulator's pieces cover it. -/
theorem scover1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_C c i arg2 harg2 arg3 harg3 arg4 harg4 arg5 harg5 arg6 harg6 arg7 harg7 hc0 hc1 hc2 x0 x1 x2 x3 xs0).2.1, y ∈ pc.1.set :=
  View.cover_of_tiledL (kernelRun1_C c i arg2 harg2 arg3 harg3 arg4 harg4 arg5 harg5 arg6 harg6 arg7 harg7 hc0 hc1 hc2 x0 x1 x2 x3 xs0).2.1 S2048x128.size (by sl_kernel_rfl) y

/-- What case C leaves in the accumulator: its pieces read back. -/
def sout1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_C c i arg2 harg2 arg3 harg3 arg4 harg4 arg5 harg5 arg6 harg6 arg7 harg7 hc0 hc1 hc2 x0 x1 x2 x3 xs0).2.1)

/-- What case C leaves in the output block's buffer (nothing is stored: a placeholder nothing consults, the window being idle and not written back there). -/
def out1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_C c i arg2 harg2 arg3 harg3 arg4 harg4 arg5 harg5 arg6 harg6 arg7 harg7 hc0 hc1 hc2 x0 x1 x2 x3 xs0).1)

/-- In case D the accumulator's pieces cover it. -/
theorem scover1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_D c i arg2 harg2 arg3 harg3 arg4 harg4 arg5 harg5 arg6 harg6 arg7 harg7 hc0 hc1 hc2 x0 x1 x2 x3 xs0).2.1, y ∈ pc.1.set :=
  View.cover_of_tiledL (kernelRun1_D c i arg2 harg2 arg3 harg3 arg4 harg4 arg5 harg5 arg6 harg6 arg7 harg7 hc0 hc1 hc2 x0 x1 x2 x3 xs0).2.1 S2048x128.size (by sl_kernel_rfl) y

/-- What case D leaves in the accumulator: its pieces read back. -/
def sout1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_D c i arg2 harg2 arg3 harg3 arg4 harg4 arg5 harg5 arg6 harg6 arg7 harg7 hc0 hc1 hc2 x0 x1 x2 x3 xs0).2.1)

/-- What case D leaves in the output block's buffer (nothing is stored: a placeholder nothing consults, the window being idle and not written back there). -/
def out1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_D c i arg2 harg2 arg3 harg3 arg4 harg4 arg5 harg5 arg6 harg6 arg7 harg7 hc0 hc1 hc2 x0 x1 x2 x3 xs0).1)

/-- In case E the accumulator's pieces cover it. -/
theorem scover1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_E c i arg2 harg2 arg3 harg3 arg4 harg4 arg5 harg5 arg6 harg6 arg7 harg7 hc0 hc1 hc2 x0 x1 x2 x3 xs0).2.1, y ∈ pc.1.set :=
  View.cover_of_tiledL (kernelRun1_E c i arg2 harg2 arg3 harg3 arg4 harg4 arg5 harg5 arg6 harg6 arg7 harg7 hc0 hc1 hc2 x0 x1 x2 x3 xs0).2.1 S2048x128.size (by sl_kernel_rfl) y

/-- What case E leaves in the accumulator: its pieces read back. -/
def sout1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_E c i arg2 harg2 arg3 harg3 arg4 harg4 arg5 harg5 arg6 harg6 arg7 harg7 hc0 hc1 hc2 x0 x1 x2 x3 xs0).2.1)

/-- In case E the output block's pieces cover it. -/
theorem cover1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_E c i arg2 harg2 arg3 harg3 arg4 harg4 arg5 harg5 arg6 harg6 arg7 harg7 hc0 hc1 hc2 x0 x1 x2 x3 xs0).1, y ∈ pc.1.set :=
  View.cover_of_tiledL (kernelRun1_E c i arg2 harg2 arg3 harg3 arg4 harg4 arg5 harg5 arg6 harg6 arg7 harg7 hc0 hc1 hc2 x0 x1 x2 x3 xs0).1 S2048x128.size (by sl_kernel_rfl) y

/-- What case E leaves in the output block's buffer: its pieces read back. -/
def out1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_E c i arg2 harg2 arg3 harg3 arg4 harg4 arg5 harg5 arg6 harg6 arg7 harg7 hc0 hc1 hc2 x0 x1 x2 x3 xs0).1)

/-- In case G the accumulator's pieces cover it. -/
theorem scover1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_G c i arg2 harg2 arg3 harg3 arg4 harg4 arg5 harg5 arg6 harg6 arg7 harg7 hc0 hc1 hc2 x0 x1 x2 x3 xs0).2.1, y ∈ pc.1.set :=
  View.cover_of_tiledL (kernelRun1_G c i arg2 harg2 arg3 harg3 arg4 harg4 arg5 harg5 arg6 harg6 arg7 harg7 hc0 hc1 hc2 x0 x1 x2 x3 xs0).2.1 S2048x128.size (by sl_kernel_rfl) y

/-- What case G leaves in the accumulator: its pieces read back. -/
def sout1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_G c i arg2 harg2 arg3 harg3 arg4 harg4 arg5 harg5 arg6 harg6 arg7 harg7 hc0 hc1 hc2 x0 x1 x2 x3 xs0).2.1)

/-- In case G the output block's pieces cover it. -/
theorem cover1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_G c i arg2 harg2 arg3 harg3 arg4 harg4 arg5 harg5 arg6 harg6 arg7 harg7 hc0 hc1 hc2 x0 x1 x2 x3 xs0).1, y ∈ pc.1.set :=
  View.cover_of_tiledL (kernelRun1_G c i arg2 harg2 arg3 harg3 arg4 harg4 arg5 harg5 arg6 harg6 arg7 harg7 hc0 hc1 hc2 x0 x1 x2 x3 xs0).1 S2048x128.size (by sl_kernel_rfl) y

/-- What case G leaves in the output block's buffer: its pieces read back. -/
def out1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_G c i arg2 harg2 arg3 harg3 arg4 harg4 arg5 harg5 arg6 harg6 arg7 harg7 hc0 hc1 hc2 x0 x1 x2 x3 xs0).1)

/-! ## What the output block and the accumulator hold after each point -/

/-- After the body at position `n`: the output block's buffer and the accumulator (a pair), by the case the closed forms
    select at `n`, run on the point's memrefs and input blocks, over what position `n - 1` left in the accumulator. -/
def outsAt1 (c : Dev nD) : (n : ℕ) → n < cfg1.N → Vec F S2048x128 .f32 × Vec F S2048x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) ((hcond1_1 ⟨0, hn⟩).mpr ((Nat.zero_div 4).trans (Nat.zero_mod 4).symm)) (fun h => (fun h' => by (try dsimp only at h'); omega) ((hcond1_2 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) ((hcond1_1 ⟨0, hn⟩).mpr ((Nat.zero_div 4).trans (Nat.zero_mod 4).symm)) (fun h => (fun h' => by (try dsimp only at h'); omega) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) / 4 = (n + 1) % 4 then
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) ((hcond1_1 ⟨n + 1, hn⟩).mpr h1) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) ((hcond1_1 ⟨n + 1, hn⟩).mpr h1) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h2 : (n + 1) % 4 = 3 then
        if h1 : (n + 1) / 4 = (n + 1) % 4 then
          (out1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
        else
          (out1_G c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_G c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        if h1 : (n + 1) / 4 = (n + 1) % 4 then
          (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
        else
          (out1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A. -/
theorem outsAt1_A (c : Dev nD) (t : Fin cfg1.N) (h0 : t.val % 4 = 0) (h1 : t.val / 4 = t.val % 4) (h2 : ¬t.val % 4 = 3) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) ((hcond1_1 t).mpr h1) (fun h => h2 ((hcond1_2 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) ((hcond1_1 t).mpr h1) (fun h => h2 ((hcond1_2 t).mp h)) (iblk1 V c 0 t) (iblk1 V c 1 t) (iblk1 V c 2 t) (iblk1 V c 3 t)) := by
  obtain ⟨n, hn⟩ := t
  cases n with
  | zero => exact rfl
  | succ n => exact (dif_pos h0).trans ((dif_pos h1).trans rfl)

/-- `outsAt1` at a point of case B. -/
theorem outsAt1_B (c : Dev nD) (t : Fin cfg1.N) (h0 : t.val % 4 = 0) (h1 : ¬t.val / 4 = t.val % 4) (h2 : ¬t.val % 4 = 3) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t), sout1_B c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t)) := by
  obtain ⟨n, hn⟩ := t
  cases n with
  | zero => exact absurd ((Nat.zero_div 4).trans (Nat.zero_mod 4).symm) h1
  | succ n => exact (dif_pos h0).trans ((dif_neg h1).trans rfl)

/-- `outsAt1` at a point of case C. -/
theorem outsAt1_C (c : Dev nD) (t : Fin cfg1.N) (h0 : ¬t.val % 4 = 0) (h1 : t.val / 4 = t.val % 4) (h2 : ¬t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans ((dif_pos h1).trans rfl))

/-- `outsAt1` at a point of case D. -/
theorem outsAt1_D (c : Dev nD) (t : Fin cfg1.N) (h0 : ¬t.val % 4 = 0) (h1 : ¬t.val / 4 = t.val % 4) (h2 : ¬t.val % 4 = 3) :
    outsAt1 V c t.val t.isLt = (out1_D c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2, sout1_D c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans ((dif_neg h1).trans rfl))

/-- `outsAt1` at a point of case E. -/
theorem outsAt1_E (c : Dev nD) (t : Fin cfg1.N) (h0 : ¬t.val % 4 = 0) (h1 : t.val / 4 = t.val % 4) (h2 : t.val % 4 = 3) :
    outsAt1 V c t.val t.isLt = (out1_E c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2, sout1_E c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h2).trans ((dif_pos h1).trans rfl))

/-- `outsAt1` at a point of case G. -/
theorem outsAt1_G (c : Dev nD) (t : Fin cfg1.N) (h0 : ¬t.val % 4 = 0) (h1 : ¬t.val / 4 = t.val % 4) (h2 : t.val % 4 = 3) :
    outsAt1 V c t.val t.isLt = (out1_G c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2, sout1_G c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h2).trans ((dif_neg h1).trans rfl))

/-! ## The invariant -/

/-- Before position `n`: at the start the untouched rest; afterwards the same with the accumulator at what the point
    before left in it. -/
def PhiS1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(anyAt c cc0_stg0_0 ∗ anyAt c cc0_stg0_1 ∗ anyAt c cc0_stg1_0 ∗ anyAt c cc0_stg1_1 ∗ owns (c : Thread nD τ) scM1 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · have h2 : ¬t.val % 4 = 3 := by omega
    by_cases h1 : t.val / 4 = t.val % 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h2 ((hcond1_2 t).mp h))) (noFlush1_4 t (fun h => h2 ((hcond1_2 t).mp h)))]
      rw [outsAt1_A V c t h0 h1 h2]
      unfold sout1_A; (try dsimp only)
      by_cases hz : t.val = 0
      · rw [PhiS1_castSucc V c t, PhiS1_zero V c _ _ hz, PhiA1_eq]
        iintro ⟨⟨⟨HE0, HE1, HE2, HE3, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HE0 HE1 HE2 HE3 HS0 Hg]
        · isplitl [HE0 HE1 HE2 HE3 HS0]
          · isplitl [HE0]; · iexact HE0
            isplitl [HE1]; · iexact HE1
            isplitl [HE2]; · iexact HE2
            isplitl [HE3]; · iexact HE3
            unfold owns; iexists _; isplitr
            swap; · iexact HS0
            ipureintro; exact View.read_writes_of_cover _ _ _ _ _ (scover1_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HE0, HE1, HE2, HE3, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HE0 HE1 HE2 HE3 HS0 Hg]
        · isplitl [HE0 HE1 HE2 HE3 HS0]
          · isplitl [HE0]; · iexact HE0
            isplitl [HE1]; · iexact HE1
            isplitl [HE2]; · iexact HE2
            isplitl [HE3]; · iexact HE3
            unfold owns; iexists _; isplitr
            swap; · iexact HS0
            ipureintro; exact View.read_writes_of_cover _ _ _ _ _ (scover1_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h2 ((hcond1_2 t).mp h))) (noFlush1_4 t (fun h => h2 ((hcond1_2 t).mp h)))]
      rw [outsAt1_B V c t h0 h1 h2]
      unfold sout1_B; (try dsimp only)
      by_cases hz : t.val = 0
      · exfalso; omega
      · rw [PhiS1_castSucc V c t, PhiS1_pos V c _ _ hz]
        iintro ⟨⟨⟨HE0, HE1, HE2, HE3, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HE0 HE1 HE2 HE3 HS0 Hg]
        · isplitl [HE0 HE1 HE2 HE3 HS0]
          · isplitl [HE0]; · iexact HE0
            isplitl [HE1]; · iexact HE1
            isplitl [HE2]; · iexact HE2
            isplitl [HE3]; · iexact HE3
            unfold owns; iexists _; isplitr
            swap; · iexact HS0
            ipureintro; exact View.read_writes_of_cover _ _ _ _ _ (scover1_B c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h2 : t.val % 4 = 3
    · by_cases h1 : t.val / 4 = t.val % 4
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        rw [outsAt1_E V c t h0 h1 h2]
        unfold sout1_E out1_E; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_E c (grid1.coords t) _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) _).2.2 Set.univ _)
          isplitl [H0]; · iexact H0
          isplitl [H1]; · iexact H1
          isplitl [H2]; · iexact H2
          isplitl [H3]; · iexact H3
          isplitl [H4]; · iexists _; iexact H4
          isplitl [HS0]; · iexact HS0
          iintro ⟨H0, H1, H2, H3, ⟨%e4, H4⟩, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_E c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_E c _ _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        rw [outsAt1_G V c t h0 h1 h2]
        unfold sout1_G out1_G; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_G c (grid1.coords t) _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) _).2.2 Set.univ _)
          isplitl [H0]; · iexact H0
          isplitl [H1]; · iexact H1
          isplitl [H2]; · iexact H2
          isplitl [H3]; · iexact H3
          isplitl [H4]; · iexists _; iexact H4
          isplitl [HS0]; · iexact HS0
          iintro ⟨H0, H1, H2, H3, ⟨%e4, H4⟩, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_G c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_G c _ _ _ _ _ _ _ _ _ _ _ _ _ _ _ _ _ _ _ _ _)
    · by_cases h1 : t.val / 4 = t.val % 4
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [Dat.leavesExact_idle (dat1 V c) 4 t (idleAt1_4 t (fun h => h2 ((hcond1_2 t).mp h))) (noFlush1_4 t (fun h => h2 ((hcond1_2 t).mp h)))]
        rw [outsAt1_C V c t h0 h1 h2]
        unfold sout1_C; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_C c (grid1.coords t) _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) _).2.2 _ Set.univ _)
          isplitl [H0]; · iexact H0
          isplitl [H1]; · iexact H1
          isplitl [H2]; · iexact H2
          isplitl [H3]; · iexact H3
          isplitl [H4]; · iexact H4
          isplitl [HS0]; · iexact HS0
          iintro ⟨H0, H1, H2, H3, H4, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_C c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [Dat.leavesExact_idle (dat1 V c) 4 t (idleAt1_4 t (fun h => h2 ((hcond1_2 t).mp h))) (noFlush1_4 t (fun h => h2 ((hcond1_2 t).mp h)))]
        rw [outsAt1_D V c t h0 h1 h2]
        unfold sout1_D; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_D c (grid1.coords t) _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) _).2.2 _ Set.univ _)
          isplitl [H0]; · iexact H0
          isplitl [H1]; · iexact H1
          isplitl [H2]; · iexact H2
          isplitl [H3]; · iexact H3
          isplitl [H4]; · iexact H4
          isplitl [HS0]; · iexact HS0
          iintro ⟨H0, H1, H2, H3, H4, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_D c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HE0, HE1, HE2, HE3, HS0⟩, Hg⟩
  isplitl [HE0 HE1 HE2 HE3 HS0]
  · isplitl [HE0]; · iexact HE0
    isplitl [HE1]; · iexact HE1
    isplitl [HE2]; · iexact HE2
    isplitl [HE3]; · iexact HE3
    iexists _; iexact HS0
  iexact Hg

end Cert.Kernel.Hand

end
-- ==== Proof.BitsRun.lean ====
/-
  The whole program's run at any float instance: the first Pallas call, four host operations, the second Pallas call.

  The contents of the core's unscoped buffers are followed from the launch through the three segments: after the
  first region its output array (the inverse-square-root column) holds what the pipeline's write-backs leave and
  every other buffer is as before; the host operations then write the projected features, the column broadcast
  along the rows, their product and the bias as a row; after the second region its output array holds what its
  write-backs leave. Every weakly fair execution terminates in a memory that holds, at every unscoped buffer, these
  last contents (`run_all`); the four argument arrays are among the buffers nothing writes (`frame`).
-/
import proofs.«103349_j29557964931202_1_alg».proof.Proof.BitsRegion0
import proofs.«103349_j29557964931202_1_alg».proof.Proof.BitsFrame1
import proofs.«103349_j29557964931202_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the four host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- `main_arg0` ends as launched: no region stages it and no host operation writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

/-- The adjacency matrix ends as launched: both regions only read it, through an input window, and no host operation
    writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- `main_arg2` ends as launched: no region stages it and no host operation writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

/-- `main_arg3` ends as launched: no region stages it and no host operation writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (r := main_arg3) (by decide)
    _ = W0 m ρ c (Proc.devRef .tc main_arg3) := W1_of_ne m ρ c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what the pipeline leaves; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (pdats m ρ 1 c).Φ (Fin.last _)
        ⊢ (iprop(Pipeline.scopedRest (Ix := Unit) (Name := ℕ) (U := UR sig nD τ) (Lvl := ℕ) (Val := Elt F) spec1 c ∗ ∃ r, prngReg c r) : sProp 𝕄) :=
      hout1 (V2 m ρ) c
    iintro H
    ihave H' := hgive $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and the final memory holds at every unscoped buffer the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the run terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The same run with the result array named: it ends at what the second region's write-backs leave. -/
theorem run_result : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.IdealRegion0.lean ====
/-
  The degree kernel's region (the first Pallas call), at any float instance and at any contents `V` of the core's
  buffers when the region is entered.

  Each of the sixteen grid points takes a block of 512 full rows of the adjacency matrix, sums every row, adds
  one, and stores the masked inverse square root as a 512 × 1 column block of the degree vector. The body reads
  its one input block whole and stores its one output block whole, and keeps nothing between points. So after the
  body at point `t` the output's staging buffer holds the body's one payload of the input block at `t`
  (`deg0`), and the region's invariant is the untouched scoped rest with the generator register.
-/
import proofs.«103349_j29557964931202_1_alg».proof.Proof.Gen.KernelIdeal.Launch
import proofs.«103349_j29557964931202_1_alg».proof.Proof.Gen.KernelIdeal.Skeleton
import proofs.«103349_j29557964931202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency rows' staging buffer holds their block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 8192 block and the whole 512 × 1 column, as the body's rectangles. -/
abbrev rA0 : Rect S512x8192 := Rect.unit (s := S512x8192) ![0, 0] S512x8192.size inb_S512x8192_S512x8192_0_0
abbrev rD0 : Rect S512x1 := Rect.unit (s := S512x1) ![0, 0] S512x1.size inb_S512x1_S512x1_0_0

/-- What the body leaves in the degree column's staging buffer: its one store, of the payload of the rows. -/
def deg0 (x0 : Vec F S512x8192 .f32) : Vec F S512x1 .f32 :=
  View.canon [⟨rD0, k0_pay1 (View.ld x0 rA0)⟩]

/-- The one store covers the column block. -/
theorem cover0 (p0 : Vec F S512x1 .f32) (y : S512x1.Idx) :
    ∃ pc ∈ ([⟨rD0, p0⟩] : List (View.Piece (Elt F) S512x1 .f32)), y ∈ pc.1.set :=
  View.cover_of_tiled [⟨rD0, p0⟩] S512x1.size (by rfl) y

set_option maxHeartbeats 1000000 in
/-- The body on whole staging memrefs, the rows' at contents `x0` and the column's at anything, runs to the
    continuation holding the rows as they were and the column at `deg0 x0`. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (deg0 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The region's proof data on core `c`: the arrays as the region finds them; after the body at point `t` the
    rows' buffer at its block and the column's at `deg0` of it; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => deg0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = deg0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the rows' memref holds their block, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRuns1.lean ====
/-
  What the runs of the layer kernel's region (the second Pallas call) share, at any float instance.

  The grid is 4 × 4: point (i, k) takes the 2048 × 2048 block (i, k) of the adjacency matrix, block k of the scaled
  features, block i of the inverse-square-root column and the bias row, and accumulates in a 2048 × 128 scratch that
  lives across the four points of a row of blocks: zeroed when k = 0, increased by the block product at every k,
  increased once more by the scaled features' own block when i = k (the self-loop), and at k = 3 scaled by the
  column, shifted by the bias and stored into the output block i, which the pipeline writes back then and only then.
  Here: the three conditions as the body computes them and in closed form over the linear point t = 4 i + k; where
  the output is idle; the staging and scratch memrefs at a point; the invariant's spelling; each input's block.
-/
import proofs.«103349_j29557964931202_1_alg».proof.Proof.Gen.KernelIdeal.Launch
import proofs.«103349_j29557964931202_1_alg».proof.Proof.Gen.KernelIdeal.Skeleton
import proofs.«103349_j29557964931202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's three conditions -/

/-- `k = 0`, as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- `i = k`, as the body computes it. -/
abbrev cond1_1 (i : grid1.Coords) : Prop := (Scalar.cmpi .ne (Scalar.extui (Scalar.cmpi .eq (BitVec.ofNat 32 (i 0).val) (BitVec.ofNat 32 (i 1).val))) 0#32) = 1#1
/-- It holds at the points whose quotient and remainder by 4 agree. -/
theorem hcond1_1 : ∀ t : Fin cfg1.N, cond1_1 (grid1.coords t) ↔ t.val / 4 = t.val % 4 :=
  (by decide +kernel : ∀ t : Fin grid1.N, cond1_1 (grid1.coords t) ↔ t.val / 4 = t.val % 4)

/-- `k = 3` (the last block of the row), as the body computes it. -/
abbrev cond1_2 (i : grid1.Coords) : Prop := k1_cond3 i = 1#1
/-- It holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the row's last block the output is idle: nothing is stored into it, -/
theorem idleAt1_4 : ∀ t : Fin cfg1.N, ¬cond1_2 (grid1.coords t) → cfg1.idle 4 (grid1.coords t) = true := by decide +kernel
/-- and it is not written back. -/
theorem noFlush1_4 : ∀ t : Fin cfg1.N, ¬cond1_2 (grid1.coords t) → (cfg1.win 4).flush t = false := by decide +kernel
/-- At the row's last block it is live. -/
theorem liveAt1_4 : ∀ t : Fin cfg1.N, cond1_2 (grid1.coords t) → cfg1.idle 4 (grid1.coords t) = false := by decide +kernel

/-! ## The memrefs at a point -/

/-- One staging buffer of the output window, through which its contents are stated. -/
abbrev VO1 : View sig .tc .vmem S2048x128 .f32 := (Memref.whole cc1_stg4_0 : Memref sig .tc .vmem S2048x128 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S2048x128 .f32 := Memref.whole cc1_scratch0
abbrev VS1 : View sig .tc .vmem S2048x128 .f32 := scM1.view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The region's untouched rest, spelt out: the first call's four staging buffers at anything, the accumulator owned
    at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ (∃ d, owns (c : Thread nD τ) scM1 fullShare d)) ∗ (∃ r, prngReg c r)) := by
  unfold Pipeline.ΦA; rw [scopedRest1_eq]; simp only [scM1, owns_whole]; try rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.IdealCases1a.lean ====
/-
  The layer kernel's body run whole, in 3 of the six cases of its three conditions that the grid meets
  (A, B, C): each conditional decided by the case's hypotheses, every load and store stepped, and the pieces
  each buffer ends with found by the run itself.
-/
import proofs.«103349_j29557964931202_1_alg».proof.Proof.IdealRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point that is the row's first block (the accumulator is zeroed), on the diagonal (the self-loop's block is added), not the row's last block (the output is idle): on whole staging memrefs, the inputs at their contents, the idle output at contents handed back untouched, the accumulator at anything, it runs to the continuation holding the inputs as they were and the accumulator with its pieces written. The piece lists are the witness the run finds. -/
noncomputable def kernelRun1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point that is the row's first block (the accumulator is zeroed), off the diagonal, not the row's last block (the output is idle): on whole staging memrefs, the inputs at their contents, the idle output at contents handed back untouched, the accumulator at anything, it runs to the continuation holding the inputs as they were and the accumulator with its pieces written. The piece lists are the witness the run finds. -/
noncomputable def kernelRun1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point that is a later block of the row (the accumulator is carried), on the diagonal (the self-loop's block is added), not the row's last block (the output is idle): on whole staging memrefs, the inputs at their contents, the idle output at contents handed back untouched, the accumulator at what the point before left, it runs to the continuation holding the inputs as they were and the accumulator with its pieces written. The piece lists are the witness the run finds. -/
noncomputable def kernelRun1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.IdealCases1b.lean ====
/-
  The layer kernel's body run whole, in 3 of the six cases of its three conditions that the grid meets
  (D, E, G): each conditional decided by the case's hypotheses, every load and store stepped, and the pieces
  each buffer ends with found by the run itself.
-/
import proofs.«103349_j29557964931202_1_alg».proof.Proof.IdealCases1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point that is a later block of the row (the accumulator is carried), off the diagonal, not the row's last block (the output is idle): on whole staging memrefs, the inputs at their contents, the idle output at contents handed back untouched, the accumulator at what the point before left, it runs to the continuation holding the inputs as they were and the accumulator with its pieces written. The piece lists are the witness the run finds. -/
noncomputable def kernelRun1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point that is a later block of the row (the accumulator is carried), on the diagonal (the self-loop's block is added), the row's last block (the output block is stored): on whole staging memrefs, the inputs at their contents, the output at anything, the accumulator at what the point before left, it runs to the continuation holding the inputs as they were, the output with its pieces written and the accumulator with its pieces written. The piece lists are the witness the run finds. -/
noncomputable def kernelRun1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

set_option maxHeartbeats 1000000 in
/-- The body at a point that is a later block of the row (the accumulator is carried), off the diagonal, the row's last block (the output block is stored): on whole staging memrefs, the inputs at their contents, the output at anything, the accumulator at what the point before left, it runs to the continuation holding the inputs as they were, the output with its pieces written and the accumulator with its pieces written. The piece lists are the witness the run finds. -/
noncomputable def kernelRun1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.IdealFrame1.lean ====
/-
  The layer kernel's region (the second Pallas call) at any float instance and any entry contents `V`: what the
  output block and the accumulator hold after each grid point, the region's invariant, the proof data and the body
  obligation.

  After the body at linear point t = 4 i + k the accumulator holds what the case met there leaves in it, computed from
  the point's input blocks and, when k > 0, from what the point before left (`outsAt1`, by recursion on t); the output
  block holds the last case's store at k = 3 and is idle elsewhere. The invariant before a point hands the body the
  accumulator at the previous point's contents, and at anything before the first point.
-/
import proofs.«103349_j29557964931202_1_alg».proof.Proof.IdealCases1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In case A the accumulator's pieces cover it. -/
theorem scover1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) (y : S2048x128.Idx) :
    ∃ pc ∈ (kernelRun1_A c i arg2 harg2 arg3 harg3 arg4 harg4 arg5 harg5 arg6 harg6 arg7 harg7 hc0 hc1 hc2 x0 x1 x2 x3).2.1, y ∈ pc.1.set :=
  View.cover_of_tiledL (kernelRun1_A c i arg2 harg2 arg3 harg3 arg4 harg4 arg5 harg5 arg6 harg6 arg7 harg7 hc0 hc1 hc2 x0 x1 x2 x3).2.1 S2048x128.size (by sl_kernel_rfl) y

/-- What case A leaves in the accumulator: its pieces read back. -/
def sout1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) : Vec F S2048x128 .f32 :=
  VS1.read (Elt F) (VS1.writes (Elt F) VS1.junk (kernelRun1_A c i arg2 harg2 arg3 harg3 arg4 harg4 arg5 harg5 arg6 harg6 arg7 harg7 hc0 hc1 hc2 x0 x1 x2 x3).2.1)

/-- What case A leaves in the output block's buffer (nothing is stored: a placeholder nothing consults, the window being idle and not written back there). -/
def out1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) : Vec F S2048x128 .f32 :=
  VO1.read (Elt F) (VO1.writes (Elt F) VO1.junk (kernelRun1_A c i arg2 harg2 arg3 harg3 arg4 harg4 arg5 harg5 arg6 harg6 arg7 harg7 hc0 hc1 hc2 x0 x1 x2 x3).1)

/-- In case B the accumulator's pieces cover it. -/
theorem scover1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) (y : S2048x128.Idx) :
    ∃ pc ∈ (kernelRun1_B c i arg2 harg2 arg3 harg3 arg4 harg4 arg5 harg5 arg6 harg6 arg7 harg7 hc0 hc1 hc2 x0 x1 x2 x3).2.1, y ∈ pc.1.set :=
  View.cover_of_tiledL (kernelRun1_B c i arg2 harg2 arg3 harg3 arg4 harg4 arg5 harg5 arg6 harg6 arg7 harg7 hc0 hc1 hc2 x0 x1 x2 x3).2.1 S2048x128.size (by sl_kernel_rfl) y

/-- What case B leaves in the accumulator: its pieces read back. -/
def sout1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) : Vec F S2048x128 .f32 :=
  VS1.read (Elt F) (VS1.writes (Elt F) VS1.junk (kernelRun1_B c i arg2 harg2 arg3 harg3 arg4 harg4 arg5 harg5 arg6 harg6 arg7 harg7 hc0 hc1 hc2 x0 x1 x2 x3).2.1)

/-- What case B leaves in the output block's buffer (nothing is stored: a placeholder nothing consults, the window being idle and not written back there). -/
def out1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) : Vec F S2048x128 .f32 :=
  VO1.read (Elt F) (VO1.writes (Elt F) VO1.junk (kernelRun1_B c i arg2 harg2 arg3 harg3 arg4 harg4 arg5 harg5 arg6 harg6 arg7 harg7 hc0 hc1 hc2 x0 x1 x2 x3).1)

/-- In case C the accumulator's pieces cover it. -/
theorem scover1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_C c i arg2 harg2 arg3 harg3 arg4 harg4 arg5 harg5 arg6 harg6 arg7 harg7 hc0 hc1 hc2 x0 x1 x2 x3 xs0).2.1, y ∈ pc.1.set :=
  View.cover_of_tiledL (kernelRun1_C c i arg2 harg2 arg3 harg3 arg4 harg4 arg5 harg5 arg6 harg6 arg7 harg7 hc0 hc1 hc2 x0 x1 x2 x3 xs0).2.1 S2048x128.size (by sl_kernel_rfl) y

/-- What case C leaves in the accumulator: its pieces read back. -/
def sout1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_C c i arg2 harg2 arg3 harg3 arg4 harg4 arg5 harg5 arg6 harg6 arg7 harg7 hc0 hc1 hc2 x0 x1 x2 x3 xs0).2.1)

/-- What case C leaves in the output block's buffer (nothing is stored: a placeholder nothing consults, the window being idle and not written back there). -/
def out1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_C c i arg2 harg2 arg3 harg3 arg4 harg4 arg5 harg5 arg6 harg6 arg7 harg7 hc0 hc1 hc2 x0 x1 x2 x3 xs0).1)

/-- In case D the accumulator's pieces cover it. -/
theorem scover1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_D c i arg2 harg2 arg3 harg3 arg4 harg4 arg5 harg5 arg6 harg6 arg7 harg7 hc0 hc1 hc2 x0 x1 x2 x3 xs0).2.1, y ∈ pc.1.set :=
  View.cover_of_tiledL (kernelRun1_D c i arg2 harg2 arg3 harg3 arg4 harg4 arg5 harg5 arg6 harg6 arg7 harg7 hc0 hc1 hc2 x0 x1 x2 x3 xs0).2.1 S2048x128.size (by sl_kernel_rfl) y

/-- What case D leaves in the accumulator: its pieces read back. -/
def sout1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_D c i arg2 harg2 arg3 harg3 arg4 harg4 arg5 harg5 arg6 harg6 arg7 harg7 hc0 hc1 hc2 x0 x1 x2 x3 xs0).2.1)

/-- What case D leaves in the output block's buffer (nothing is stored: a placeholder nothing consults, the window being idle and not written back there). -/
def out1_D (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_D c i arg2 harg2 arg3 harg3 arg4 harg4 arg5 harg5 arg6 harg6 arg7 harg7 hc0 hc1 hc2 x0 x1 x2 x3 xs0).1)

/-- In case E the accumulator's pieces cover it. -/
theorem scover1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_E c i arg2 harg2 arg3 harg3 arg4 harg4 arg5 harg5 arg6 harg6 arg7 harg7 hc0 hc1 hc2 x0 x1 x2 x3 xs0).2.1, y ∈ pc.1.set :=
  View.cover_of_tiledL (kernelRun1_E c i arg2 harg2 arg3 harg3 arg4 harg4 arg5 harg5 arg6 harg6 arg7 harg7 hc0 hc1 hc2 x0 x1 x2 x3 xs0).2.1 S2048x128.size (by sl_kernel_rfl) y

/-- What case E leaves in the accumulator: its pieces read back. -/
def sout1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_E c i arg2 harg2 arg3 harg3 arg4 harg4 arg5 harg5 arg6 harg6 arg7 harg7 hc0 hc1 hc2 x0 x1 x2 x3 xs0).2.1)

/-- In case E the output block's pieces cover it. -/
theorem cover1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_E c i arg2 harg2 arg3 harg3 arg4 harg4 arg5 harg5 arg6 harg6 arg7 harg7 hc0 hc1 hc2 x0 x1 x2 x3 xs0).1, y ∈ pc.1.set :=
  View.cover_of_tiledL (kernelRun1_E c i arg2 harg2 arg3 harg3 arg4 harg4 arg5 harg5 arg6 harg6 arg7 harg7 hc0 hc1 hc2 x0 x1 x2 x3 xs0).1 S2048x128.size (by sl_kernel_rfl) y

/-- What case E leaves in the output block's buffer: its pieces read back. -/
def out1_E (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_E c i arg2 harg2 arg3 harg3 arg4 harg4 arg5 harg5 arg6 harg6 arg7 harg7 hc0 hc1 hc2 x0 x1 x2 x3 xs0).1)

/-- In case G the accumulator's pieces cover it. -/
theorem scover1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_G c i arg2 harg2 arg3 harg3 arg4 harg4 arg5 harg5 arg6 harg6 arg7 harg7 hc0 hc1 hc2 x0 x1 x2 x3 xs0).2.1, y ∈ pc.1.set :=
  View.cover_of_tiledL (kernelRun1_G c i arg2 harg2 arg3 harg3 arg4 harg4 arg5 harg5 arg6 harg6 arg7 harg7 hc0 hc1 hc2 x0 x1 x2 x3 xs0).2.1 S2048x128.size (by sl_kernel_rfl) y

/-- What case G leaves in the accumulator: its pieces read back. -/
def sout1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VS1.read (Elt F) (VS1.writes (Elt F) VS1.junk (kernelRun1_G c i arg2 harg2 arg3 harg3 arg4 harg4 arg5 harg5 arg6 harg6 arg7 harg7 hc0 hc1 hc2 x0 x1 x2 x3 xs0).2.1)

/-- In case G the output block's pieces cover it. -/
theorem cover1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) (y : S2048x128.Idx) :
    ∃ pc ∈ (kernelRun1_G c i arg2 harg2 arg3 harg3 arg4 harg4 arg5 harg5 arg6 harg6 arg7 harg7 hc0 hc1 hc2 x0 x1 x2 x3 xs0).1, y ∈ pc.1.set :=
  View.cover_of_tiledL (kernelRun1_G c i arg2 harg2 arg3 harg3 arg4 harg4 arg5 harg5 arg6 harg6 arg7 harg7 hc0 hc1 hc2 x0 x1 x2 x3 xs0).1 S2048x128.size (by sl_kernel_rfl) y

/-- What case G leaves in the output block's buffer: its pieces read back. -/
def out1_G (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) : Vec F S2048x128 .f32 :=
  VO1.read (Elt F) (VO1.writes (Elt F) VO1.junk (kernelRun1_G c i arg2 harg2 arg3 harg3 arg4 harg4 arg5 harg5 arg6 harg6 arg7 harg7 hc0 hc1 hc2 x0 x1 x2 x3 xs0).1)

/-! ## What the output block and the accumulator hold after each point -/

/-- After the body at position `n`: the output block's buffer and the accumulator (a pair), by the case the closed forms
    select at `n`, run on the point's memrefs and input blocks, over what position `n - 1` left in the accumulator. -/
def outsAt1 (c : Dev nD) : (n : ℕ) → n < cfg1.N → Vec F S2048x128 .f32 × Vec F S2048x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) ((hcond1_1 ⟨0, hn⟩).mpr ((Nat.zero_div 4).trans (Nat.zero_mod 4).symm)) (fun h => (fun h' => by (try dsimp only at h'); omega) ((hcond1_2 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) ((hcond1_1 ⟨0, hn⟩).mpr ((Nat.zero_div 4).trans (Nat.zero_mod 4).symm)) (fun h => (fun h' => by (try dsimp only at h'); omega) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) / 4 = (n + 1) % 4 then
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) ((hcond1_1 ⟨n + 1, hn⟩).mpr h1) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) ((hcond1_1 ⟨n + 1, hn⟩).mpr h1) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (fun h => (fun h' => by (try dsimp only at h'); omega) ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h2 : (n + 1) % 4 = 3 then
        if h1 : (n + 1) / 4 = (n + 1) % 4 then
          (out1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_E c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
        else
          (out1_G c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_G c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        if h1 : (n + 1) / 4 = (n + 1) % 4 then
          (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
        else
          (out1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_D c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A. -/
theorem outsAt1_A (c : Dev nD) (t : Fin cfg1.N) (h0 : t.val % 4 = 0) (h1 : t.val / 4 = t.val % 4) (h2 : ¬t.val % 4 = 3) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) ((hcond1_1 t).mpr h1) (fun h => h2 ((hcond1_2 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) ((hcond1_1 t).mpr h1) (fun h => h2 ((hcond1_2 t).mp h)) (iblk1 V c 0 t) (iblk1 V c 1 t) (iblk1 V c 2 t) (iblk1 V c 3 t)) := by
  obtain ⟨n, hn⟩ := t
  cases n with
  | zero => exact rfl
  | succ n => exact (dif_pos h0).trans ((dif_pos h1).trans rfl)

/-- `outsAt1` at a point of case B. -/
theorem outsAt1_B (c : Dev nD) (t : Fin cfg1.N) (h0 : t.val % 4 = 0) (h1 : ¬t.val / 4 = t.val % 4) (h2 : ¬t.val % 4 = 3) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t), sout1_B c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t)) := by
  obtain ⟨n, hn⟩ := t
  cases n with
  | zero => exact absurd ((Nat.zero_div 4).trans (Nat.zero_mod 4).symm) h1
  | succ n => exact (dif_pos h0).trans ((dif_neg h1).trans rfl)

/-- `outsAt1` at a point of case C. -/
theorem outsAt1_C (c : Dev nD) (t : Fin cfg1.N) (h0 : ¬t.val % 4 = 0) (h1 : t.val / 4 = t.val % 4) (h2 : ¬t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans ((dif_pos h1).trans rfl))

/-- `outsAt1` at a point of case D. -/
theorem outsAt1_D (c : Dev nD) (t : Fin cfg1.N) (h0 : ¬t.val % 4 = 0) (h1 : ¬t.val / 4 = t.val % 4) (h2 : ¬t.val % 4 = 3) :
    outsAt1 V c t.val t.isLt = (out1_D c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2, sout1_D c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans ((dif_neg h1).trans rfl))

/-- `outsAt1` at a point of case E. -/
theorem outsAt1_E (c : Dev nD) (t : Fin cfg1.N) (h0 : ¬t.val % 4 = 0) (h1 : t.val / 4 = t.val % 4) (h2 : t.val % 4 = 3) :
    outsAt1 V c t.val t.isLt = (out1_E c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2, sout1_E c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h2).trans ((dif_pos h1).trans rfl))

/-- `outsAt1` at a point of case G. -/
theorem outsAt1_G (c : Dev nD) (t : Fin cfg1.N) (h0 : ¬t.val % 4 = 0) (h1 : ¬t.val / 4 = t.val % 4) (h2 : t.val % 4 = 3) :
    outsAt1 V c t.val t.isLt = (out1_G c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2, sout1_G c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h2).trans ((dif_neg h1).trans rfl))

/-! ## The invariant -/

/-- Before position `n`: at the start the untouched rest; afterwards the same with the accumulator at what the point
    before left in it. -/
def PhiS1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(anyAt c cc0_stg0_0 ∗ anyAt c cc0_stg0_1 ∗ anyAt c cc0_stg1_0 ∗ anyAt c cc0_stg1_1 ∗ owns (c : Thread nD τ) scM1 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · have h2 : ¬t.val % 4 = 3 := by omega
    by_cases h1 : t.val / 4 = t.val % 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h2 ((hcond1_2 t).mp h))) (noFlush1_4 t (fun h => h2 ((hcond1_2 t).mp h)))]
      rw [outsAt1_A V c t h0 h1 h2]
      unfold sout1_A; (try dsimp only)
      by_cases hz : t.val = 0
      · rw [PhiS1_castSucc V c t, PhiS1_zero V c _ _ hz, PhiA1_eq]
        iintro ⟨⟨⟨HE0, HE1, HE2, HE3, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HE0 HE1 HE2 HE3 HS0 Hg]
        · isplitl [HE0 HE1 HE2 HE3 HS0]
          · isplitl [HE0]; · iexact HE0
            isplitl [HE1]; · iexact HE1
            isplitl [HE2]; · iexact HE2
            isplitl [HE3]; · iexact HE3
            unfold owns; iexists _; isplitr
            swap; · iexact HS0
            ipureintro; exact View.read_writes_of_cover _ _ _ _ _ (scover1_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HE0, HE1, HE2, HE3, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HE0 HE1 HE2 HE3 HS0 Hg]
        · isplitl [HE0 HE1 HE2 HE3 HS0]
          · isplitl [HE0]; · iexact HE0
            isplitl [HE1]; · iexact HE1
            isplitl [HE2]; · iexact HE2
            isplitl [HE3]; · iexact HE3
            unfold owns; iexists _; isplitr
            swap; · iexact HS0
            ipureintro; exact View.read_writes_of_cover _ _ _ _ _ (scover1_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h2 ((hcond1_2 t).mp h))) (noFlush1_4 t (fun h => h2 ((hcond1_2 t).mp h)))]
      rw [outsAt1_B V c t h0 h1 h2]
      unfold sout1_B; (try dsimp only)
      by_cases hz : t.val = 0
      · exfalso; omega
      · rw [PhiS1_castSucc V c t, PhiS1_pos V c _ _ hz]
        iintro ⟨⟨⟨HE0, HE1, HE2, HE3, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HE0 HE1 HE2 HE3 HS0 Hg]
        · isplitl [HE0 HE1 HE2 HE3 HS0]
          · isplitl [HE0]; · iexact HE0
            isplitl [HE1]; · iexact HE1
            isplitl [HE2]; · iexact HE2
            isplitl [HE3]; · iexact HE3
            unfold owns; iexists _; isplitr
            swap; · iexact HS0
            ipureintro; exact View.read_writes_of_cover _ _ _ _ _ (scover1_B c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h2 : t.val % 4 = 3
    · by_cases h1 : t.val / 4 = t.val % 4
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        rw [outsAt1_E V c t h0 h1 h2]
        unfold sout1_E out1_E; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_E c (grid1.coords t) _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) _).2.2 Set.univ _)
          isplitl [H0]; · iexact H0
          isplitl [H1]; · iexact H1
          isplitl [H2]; · iexact H2
          isplitl [H3]; · iexact H3
          isplitl [H4]; · iexists _; iexact H4
          isplitl [HS0]; · iexact HS0
          iintro ⟨H0, H1, H2, H3, ⟨%e4, H4⟩, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_E c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_E c _ _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t ((hcond1_2 t).mpr h2)], after1_4]
        rw [outsAt1_G V c t h0 h1 h2]
        unfold sout1_G out1_G; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_G c (grid1.coords t) _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) _).2.2 Set.univ _)
          isplitl [H0]; · iexact H0
          isplitl [H1]; · iexact H1
          isplitl [H2]; · iexact H2
          isplitl [H3]; · iexact H3
          isplitl [H4]; · iexists _; iexact H4
          isplitl [HS0]; · iexact HS0
          iintro ⟨H0, H1, H2, H3, ⟨%e4, H4⟩, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_G c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_G c _ _ _ _ _ _ _ _ _ _ _ _ _ _ _ _ _ _ _ _ _)
    · by_cases h1 : t.val / 4 = t.val % 4
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [Dat.leavesExact_idle (dat1 V c) 4 t (idleAt1_4 t (fun h => h2 ((hcond1_2 t).mp h))) (noFlush1_4 t (fun h => h2 ((hcond1_2 t).mp h)))]
        rw [outsAt1_C V c t h0 h1 h2]
        unfold sout1_C; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_C c (grid1.coords t) _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) _).2.2 _ Set.univ _)
          isplitl [H0]; · iexact H0
          isplitl [H1]; · iexact H1
          isplitl [H2]; · iexact H2
          isplitl [H3]; · iexact H3
          isplitl [H4]; · iexact H4
          isplitl [HS0]; · iexact HS0
          iintro ⟨H0, H1, H2, H3, H4, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_C c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [Dat.leavesExact_idle (dat1 V c) 4 t (idleAt1_4 t (fun h => h2 ((hcond1_2 t).mp h))) (noFlush1_4 t (fun h => h2 ((hcond1_2 t).mp h)))]
        rw [outsAt1_D V c t h0 h1 h2]
        unfold sout1_D; (try dsimp only)
        by_cases hz : t.val = 0
        · exfalso; omega
        · rw [PhiS1_castSucc V c t, PhiS1_pos V c _ _ hz]
          iintro ⟨⟨⟨HE0, HE1, HE2, HE3, HS0⟩, Hg⟩, Ho, ⟨%d0, H0⟩, ⟨%d1, H1⟩, ⟨%d2, H2⟩, ⟨%d3, H3⟩, ⟨%d4, H4⟩⟩
          iapply ((kernelRun1_D c (grid1.coords t) _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) _).2.2 _ Set.univ _)
          isplitl [H0]; · iexact H0
          isplitl [H1]; · iexact H1
          isplitl [H2]; · iexact H2
          isplitl [H3]; · iexact H3
          isplitl [H4]; · iexact H4
          isplitl [HS0]; · iexact HS0
          iintro ⟨H0, H1, H2, H3, H4, ⟨%es0, HS0⟩⟩
          isplitl [HE0 HE1 HE2 HE3 HS0 Hg]
          · isplitl [HE0 HE1 HE2 HE3 HS0]
            · isplitl [HE0]; · iexact HE0
              isplitl [HE1]; · iexact HE1
              isplitl [HE2]; · iexact HE2
              isplitl [HE3]; · iexact HE3
              unfold owns; iexists _; isplitr
              swap; · iexact HS0
              ipureintro; exact View.read_writes_of_cover _ _ _ _ _ (scover1_D c _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HE0, HE1, HE2, HE3, HS0⟩, Hg⟩
  isplitl [HE0 HE1 HE2 HE3 HS0]
  · isplitl [HE0]; · iexact HE0
    isplitl [HE1]; · iexact HE1
    isplitl [HE2]; · iexact HE2
    isplitl [HE3]; · iexact HE3
    iexists _; iexact HS0
  iexact Hg

end Cert.KernelIdeal.Hand

end
-- ==== Proof.IdealRun.lean ====
/-
  The whole program's run at any float instance: the first Pallas call, four host operations, the second Pallas call.

  The contents of the core's unscoped buffers are followed from the launch through the three segments: after the
  first region its output array (the inverse-square-root column) holds what the pipeline's write-backs leave and
  every other buffer is as before; the host operations then write the projected features, the column broadcast
  along the rows, their product and the bias as a row; after the second region its output array holds what its
  write-backs leave. Every weakly fair execution terminates in a memory that holds, at every unscoped buffer, these
  last contents (`run_all`); the four argument arrays are among the buffers nothing writes (`frame`).
-/
import proofs.«103349_j29557964931202_1_alg».proof.Proof.IdealRegion0
import proofs.«103349_j29557964931202_1_alg».proof.Proof.IdealFrame1
import proofs.«103349_j29557964931202_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the four host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- `main_arg0` ends as launched: no region stages it and no host operation writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

/-- The adjacency matrix ends as launched: both regions only read it, through an input window, and no host operation
    writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- `main_arg2` ends as launched: no region stages it and no host operation writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

/-- `main_arg3` ends as launched: no region stages it and no host operation writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (r := main_arg3) (by decide)
    _ = W0 m ρ c (Proc.devRef .tc main_arg3) := W1_of_ne m ρ c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what the pipeline leaves; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (pdats m ρ 1 c).Φ (Fin.last _)
        ⊢ (iprop(Pipeline.scopedRest (Ix := Unit) (Name := ℕ) (U := UR sig nD τ) (Lvl := ℕ) (Val := Elt F) spec1 c ∗ ∃ r, prngReg c r) : sProp 𝕄) :=
      hout1 (V2 m ρ) c
    iintro H
    ihave H' := hgive $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and the final memory holds at every unscoped buffer the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the run terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The same run with the result array named: it ends at what the second region's write-backs leave. -/
theorem run_result : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Spec.lean ====
/-
  The graph-convolution layer as one function of its four arrays, entry by entry, on the extended reals.

  For a node feature matrix X (8192 × 128), an adjacency matrix A (8192 × 8192), a weight matrix W (128 × 128) and a
  bias b (128):
    deg i      = (Σ_k A[i,k]) + 1                      the degree of node i in A + I
    dinv i     = 1/√(deg i) where deg i > 0, else 0    its inverse square root, masked
    sup k c    = Σ_j X[k,j] · W[j,c]                   the projected features
    out i c    = (Σ_k A[i,k] · (sup k c · dinv k)  +  sup i c · dinv i) · dinv i  +  b c
  The last line is the layer's output with the self-loop of A + I taken out of the sum: row i of the normalized
  adjacency dinv i · (A + I)[i,k] · dinv k, applied to sup and shifted by the bias. The constant one is kept as
  the word it is printed as; only that it is a real number is ever used of it.
-/
import Idealize.ShloMosaic.PureOps.Ideal
import Idealize.ShloMosaic.Lib.ValueIdx

noncomputable section

namespace Cert.Spec

open Idealize.ShloMosaic Idealize.ShloMosaic.ValueIdx
open scoped BigOperators

/-- The shapes of the four arrays and of the result, as literals. -/
abbrev SX : Shape := ⟨2, ![8192, 128]⟩
abbrev SA : Shape := ⟨2, ![8192, 8192]⟩
abbrev SW : Shape := ⟨2, ![128, 128]⟩
abbrev SB : Shape := ⟨1, ![128]⟩

/-- The constant one, as the word both programs print for it. -/
def one : EReal := Ideal.ofBits .f32 0x3F800000#32

/-- The degree of node `i` in `A + I`: its row sum in `A`, plus one. -/
def deg (A : SA.Idx → EReal) (i : Fin 8192) : EReal := (∑ k : Fin 8192, A (ix2 i k)) + one

/-- The masked inverse square root of the degree. -/
def dinv (A : SA.Idx → EReal) (i : Fin 8192) : EReal := if 0 < deg A i then Ideal.rsqrt (deg A i) else 0

/-- The projected features `X · W`. -/
def sup (X : SX.Idx → EReal) (W : SW.Idx → EReal) (k : Fin 8192) (c : Fin 128) : EReal :=
  ∑ j : Fin 128, X (ix2 k j) * W (ix2 j c)

/-- The projected features scaled by the source node's inverse square root. -/
def ssup (X : SX.Idx → EReal) (A : SA.Idx → EReal) (W : SW.Idx → EReal) (k : Fin 8192) (c : Fin 128) : EReal :=
  sup X W k c * dinv A k

/-- The layer's output at row `i`, column `c`. -/
def out (X : SX.Idx → EReal) (A : SA.Idx → EReal) (W : SW.Idx → EReal) (b : SB.Idx → EReal) (i : Fin 8192) (c : Fin 128) : EReal :=
  ((∑ k : Fin 8192, A (ix2 i k) * ssup X A W k c) + ssup X A W i c) * dinv A i + b (ix1 c)

/-- The layer's output as one array. -/
def G (X : SX.Idx → EReal) (A : SA.Idx → EReal) (W : SW.Idx → EReal) (b : SB.Idx → EReal) : SX.Idx → EReal :=
  fun y => out X A W b (y 0) (y 1)

theorem G_ix2 (X : SX.Idx → EReal) (A : SA.Idx → EReal) (W : SW.Idx → EReal) (b : SB.Idx → EReal) (i : Fin 8192) (c : Fin 128) :
    G X A W b (ix2 i c) = out X A W b i c := rfl

end Cert.Spec

end
-- ==== Proof.ColumnLayout.lean ====
/-
  Layout operations that keep a trailing unit axis, read at an index given by coordinates.

  A column is an array of shape [a, 1]. Three operations meet it here. A vector of length a viewed as a column
  reads, at (i, 0), the vector at i: both have row-major position i. A column spread along the second axis to
  [a, b] reads, at (p, c), the column's entry of row p: the operand's unit axis is read at 0 and its other axis at
  the result's coordinate. The host's spread of a column with the operand's axes sent to the result's axes 0 and 1
  reads the same entry.
-/
import Idealize.ShloMosaic.Lib.Pipeline.Value
import Idealize.ShloMosaic.Lib.ValueIdx

namespace Cert.ColumnLayout

open Idealize.ShloMosaic Idealize.ShloMosaic.ValueIdx

variable {α : Type}

/-- A vector of length `a` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spread of a column `[a, 1]` to `[a, b]`, the operand's axes sent to the result's axes 0 and 1, reads at
    `(p, c)` the column's entry of row `p`. -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.DegreePay.lean ====
/-
  The degree kernel's arithmetic, read entry by entry on the extended reals.

  The kernel holds 512 rows of the adjacency matrix at a time. For each row it sums the 8192 entries, adds one, and
  keeps the inverse square root of the result where the result is positive and zero elsewhere: the masked inverse
  square root of the row's degree in A + I, stored as a column of 512 entries.
-/
import proofs.«103349_j29557964931202_1_alg».proof.Proof.Gen.KernelIdeal.Skeleton
import proofs.«103349_j29557964931202_1_alg».proof.Proof.Spec
import proofs.«103349_j29557964931202_1_alg».proof.Proof.ColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-- The sum over the lanes of a 512 × 8192 block, read at row `r`: the sum of that row's entries. -/
theorem laneSum_at (v0 : Vec Ideal S512x8192 .f32) (hφ : FKind.Formats .f32)
    (hacc : (0x00000000#32 : BitVec 32) = 0x00000000#32) (r : Fin 512) :
    multiReduction (F := Ideal) .add [1] S512 v0 0x00000000#32 reduces_S512x8192_S512 hφ hacc (ix1 r)
      = ∑ k : Fin 8192, v0 (ix2 r k) := by
  refine (Ideal.multiReduction_add_single v0 0x00000000#32 reduces_S512x8192_S512 hφ hacc (ix1 r)).trans ?_
  refine Finset.sum_congr rfl fun k _ => congrArg v0 (funext fun a => Fin.ext ?_)
  match a with
  | ⟨0, _⟩ => rfl
  | ⟨1, _⟩ => rfl

/-- The degree kernel's stored column at row `r`: the masked inverse square root of the row sum plus one. -/
theorem pay0_at (v0 : Vec Ideal S512x8192 .f32) (r : Fin 512) :
    k0_pay1 (F := Ideal) v0 (ix2 r (0 : Fin 1))
      = (if 0 < (∑ k : Fin 8192, v0 (ix2 r k)) + Cert.Spec.one
          then Ideal.rsqrt ((∑ k : Fin 8192, v0 (ix2 r k)) + Cert.Spec.one) else 0) := by
  have hs := (Cert.ColumnLayout.shapeCast_a_a1_apply
    (multiReduction (F := Ideal) .add [1] S512 v0 0x00000000#32 reduces_S512x8192_S512 (.inl rfl) rfl)
    shapeCasts_S512_S512x1 r (0 : Fin 1)).trans (laneSum_at v0 (.inl rfl) rfl r)
  unfold k0_pay1
  show Scalar.select
      (Ideal.cmp .ogt
        (shapeCast S512x1 (multiReduction (F := Ideal) .add [1] S512 v0 0x00000000#32 reduces_S512x8192_S512 (.inl rfl) rfl)
            shapeCasts_S512_S512x1 (ix2 r (0 : Fin 1)) + Ideal.ofBits .f32 0x3F800000#32)
        (Ideal.ofBits .f32 0x00000000#32))
      (Ideal.rsqrt
        (shapeCast S512x1 (multiReduction (F := Ideal) .add [1] S512 v0 0x00000000#32 reduces_S512x8192_S512 (.inl rfl) rfl)
            shapeCasts_S512_S512x1 (ix2 r (0 : Fin 1)) + Ideal.ofBits .f32 0x3F800000#32))
      (Ideal.ofBits .f32 0x00000000#32) = _
  rw [hs, Ideal.ofBits_zero_f32]
  unfold Cert.Spec.one
  generalize (∑ k : Fin 8192, v0 (ix2 r k)) + Ideal.ofBits .f32 0x3F800000#32 = d
  by_cases h : 0 < d <;> simp [Scalar.select, Ideal.cmp, h]

end Cert.KernelIdeal.Pay

end
-- ==== Proof.IdealValue0.lean ====
/-
  The first region's result: the column of masked inverse square roots of the degrees, as one function of the
  adjacency matrix.

  The region has sixteen points. Point t holds rows 512 t … 512 t + 511 of the adjacency matrix whole, and writes
  back rows 512 t … 512 t + 511 of the 8192 × 1 column: entry r of its block is the masked inverse square root of
  one plus the sum of row 512 t + r. Every point writes back, and row i of the column lies in the block of the
  point i / 512, so the blocks fill the column and the column ends holding, at row i, the masked inverse square
  root of the degree of node i in A + I.
-/
import proofs.«103349_j29557964931202_1_alg».proof.Proof.IdealRegion0
import proofs.«103349_j29557964931202_1_alg».proof.Proof.DegreePay
import proofs.«103349_j29557964931202_1_alg».proof.Proof.Spec
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The body's rectangles start at the origin. -/
theorem zeroOffsets : (![0, 0] : Fin 2 → Nat) = fun _ => 0 := funext fun a => by fin_cases a <;> rfl

/-- The block index of either window at point `t` is `(t, 0)`: decided over the sixteen points. -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What the body leaves in the column block, at row `r`: the masked inverse square root of the row sum plus one. -/
theorem deg0_at (x0 : Vec Ideal S512x8192 .f32) (r : Fin 512) :
    deg0 x0 (ix2 r (0 : Fin 1))
      = (if 0 < (∑ k : Fin 8192, x0 (ix2 r k)) + Cert.Spec.one
          then Ideal.rsqrt ((∑ k : Fin 8192, x0 (ix2 r k)) + Cert.Spec.one) else 0) := by
  unfold deg0
  rw [View.canon_unit_zero zeroOffsets]
  simp only [View.ld_unit_zero (S := S512x8192) zeroOffsets]
  exact Cert.KernelIdeal.Pay.pay0_at x0 r

/-- Window 0's block at point `t` is rows `512 t … 512 t + 511` of the adjacency matrix. -/
theorem iblk0_at (c : Dev nD) (t : Fin cfg0.N) (r : Fin 512) (k : Fin 8192) (i : S8192x8192.Idx)
    (h0 : (i 0).val = 512 * t.val + r.val) (h1 : (i 1).val = k.val) :
    (iblk0 V c 0 t : Vec Ideal S512x8192 .f32) (ix2 r k) = (V c main_arg1 : S8192x8192.Idx → EReal) i := by
  obtain ⟨e0, e1, -, -⟩ := blockIndex0 t
  unfold iblk0
  rw [View.read_apply]
  show V c main_arg1 _ = V c main_arg1 i
  congr 1
  funext a
  apply Fin.ext
  match a with
  | ⟨0, _⟩ => show win0_0.index t 0 * 512 + 1 * r.val = (i 0).val; rw [e0, h0]; omega
  | ⟨1, _⟩ => show win0_0.index t 1 * 8192 + 1 * k.val = (i 1).val; rw [e1, h1]; omega

/-- A block of rows whose row `r` is row `i` of `A` gives, in its column, the masked inverse square root of node `i`. -/
theorem deg0_of_rows (x0 : Vec Ideal S512x8192 .f32) (A : Cert.Spec.SA.Idx → EReal) (r : Fin 512) (i : Fin 8192)
    (hx : ∀ k : Fin 8192, x0 (ix2 r k) = A (ix2 i k)) :
    deg0 x0 (ix2 r (0 : Fin 1)) = Cert.Spec.dinv A i := by
  rw [deg0_at]
  unfold Cert.Spec.dinv Cert.Spec.deg
  simp only [hx]

/-- The column after the region: at row `i`, the masked inverse square root of the degree of node `i`. -/
theorem degCol_final (c : Dev nD) (A : Cert.Spec.SA.Idx → EReal) (hA : (V c main_arg1 : S8192x8192.Idx → EReal) = A) :
    ((dat0 (F := Ideal) V c).arrAt 1 cfg0.N : S8192x1.Idx → EReal)
      = fun y => Cert.Spec.dinv A ⟨(y 0).val, ValueIdx.idx2_lt0 y⟩ := by
  have flushed : ∀ t, (cfg0.win 1).flush t = true →
      (dat0 (F := Ideal) V c).flushed 1 t = ((cfg0.win 1).blk t).view.read (Elt Ideal)
        (fun y : S8192x1.Idx => Cert.Spec.dinv A ⟨(y 0).val, ValueIdx.idx2_lt0 y⟩) := by
    intro t _
    show (cfg0.win 1).cut (grid0.coords t) ((dat0 V c).after 1 t) = _
    rw [after0_1]
    funext y
    have hy0 : (y 0).val < 512 := (y 0).isLt
    have hy1 : (y 1).val < 1 := (y 1).isLt
    have ht : t.val < 16 := Nat.lt_of_lt_of_eq t.isLt N_0
    obtain ⟨-, -, e2, e3⟩ := blockIndex0 t
    have ey : (cfg0.win 1).xinj (grid0.coords t) y = ix2 (⟨(y 0).val, hy0⟩ : Fin 512) (0 : Fin 1) :=
      funext fun a => Fin.ext (by
        match a with
        | ⟨0, _⟩ => rfl
        | ⟨1, _⟩ => show (y 1).val = 0; omega)
    show deg0 (iblk0 V c 0 t) ((cfg0.win 1).xinj (grid0.coords t) y)
      = Cert.Spec.dinv A ⟨(((cfg0.win 1).blk t).view.emb y 0).val, _⟩
    rw [ey]
    refine (deg0_of_rows (iblk0 V c 0 t) A ⟨(y 0).val, hy0⟩ ⟨512 * t.val + (y 0).val, by omega⟩ fun k => ?_).trans ?_
    · rw [← hA]
      exact iblk0_at V c t ⟨(y 0).val, hy0⟩ k _ rfl rfl
    · refine congrArg (Cert.Spec.dinv A) (Fin.ext ?_)
      show 512 * t.val + (y 0).val = win0_1.index t 0 * 512 + 1 * (y 0).val
      rw [e2]; omega
  refine (dat0 (F := Ideal) V c).arrAt_eq_of_cover 1 _ flushed fun i => ?_
  have hi0 : (i 0).val < 8192 := (i 0).isLt
  have hi1 : (i 1).val < 1 := (i 1).isLt
  obtain ⟨t0, ht0⟩ : ∃ t0 : Fin cfg0.N, t0.val = (i 0).val / 512 :=
    ⟨⟨(i 0).val / 512, Nat.lt_of_lt_of_eq (by omega) N_0.symm⟩, rfl⟩
  obtain ⟨-, -, e2, e3⟩ := blockIndex0 t0
  refine ⟨t0, flush0_1 t0, ?_⟩
  show i ∈ ((View.whole main_v0).slice (win0_1.rect t0)).set
  rw [View.set_slice_whole, Rect.mem_set_unit]
  intro a
  match a with
  | ⟨0, _⟩ =>
    show win0_1.index t0 0 * 512 ≤ (i 0).val ∧ (i 0).val < win0_1.index t0 0 * 512 + 512
    rw [e2]; omega
  | ⟨1, _⟩ =>
    show win0_1.index t0 1 * 1 ≤ (i 1).val ∧ (i 1).val < win0_1.index t0 1 * 1 + 1
    rw [e3]; omega

end Cert.KernelIdeal.Hand

end
-- ==== Proof.HostOps.lean ====
/-
  The four operations the program applies to whole arrays around its two kernels, read entry by entry on the
  extended reals.

  The features are projected by the weights, a sum of 128 products per entry; the column of inverse square roots the
  first kernel left is spread along the 128 feature columns; the two are multiplied entry by entry, which scales row k
  of the projected features by the inverse square root of node k; and the bias vector is viewed as one row.
-/
import proofs.«103349_j29557964931202_1_alg».proof.Proof.Gen.KernelIdeal
import proofs.«103349_j29557964931202_1_alg».proof.Proof.ColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-- The left factor's index of the projection keeps the output's row … -/
theorem projection_lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- … and the right factor's index keeps the output's column. -/
theorem projection_rhs_col (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The projected features at `(k, c)`: the sum over the 128 input features `j` of `X (k, j) · W (j, c)`. -/
theorem hostProjection_at (X : FVec Ideal S8192x128 .f32) (W : FVec Ideal S128x128 .f32) (k : Fin 8192) (c : Fin 128) :
    Host.dotGeneral (F := Ideal) dot_S8192x128_S128x128_S8192x128_1_0_0_1_n_n none X W (ix2 k c)
      = ∑ j : Fin 128, X (ix2 k j) * W (ix2 j c) := by
  simp only [Host.dotGeneral]
  rw [Ideal.dotGeneral_apply,
    ← Equiv.sum_comp (contrEquiv1 dot_S8192x128_S128x128_S8192x128_1_0_0_1_n_n 128 rfl rfl).symm]
  refine Finset.sum_congr rfl fun j _ => ?_
  have hj := contrEquiv1_symm_val dot_S8192x128_S128x128_S8192x128_1_0_0_1_n_n 128 rfl rfl j
  have el : dot_S8192x128_S128x128_S8192x128_1_0_0_1_n_n.lhsIdx (ix2 k c)
      ((contrEquiv1 dot_S8192x128_S128x128_S8192x128_1_0_0_1_n_n 128 rfl rfl).symm j) = ix2 k j :=
    funext fun a => Fin.ext (by
      match a with
      | ⟨0, _⟩ => exact projection_lhs_row _ _
      | ⟨1, _⟩ => exact (dot_S8192x128_S128x128_S8192x128_1_0_0_1_n_n.lhsIdx_val_of_single rfl _ _).trans hj)
  have er : dot_S8192x128_S128x128_S8192x128_1_0_0_1_n_n.rhsIdx (ix2 k c)
      ((contrEquiv1 dot_S8192x128_S128x128_S8192x128_1_0_0_1_n_n 128 rfl rfl).symm j) = ix2 j c :=
    funext fun a => Fin.ext (by
      match a with
      | ⟨0, _⟩ => exact (dot_S8192x128_S128x128_S8192x128_1_0_0_1_n_n.rhsIdx_val_of_single rfl _ _).trans hj
      | ⟨1, _⟩ => exact projection_rhs_col _ _)
  rw [el, er]

/-- The column of inverse square roots spread along the feature columns: at `(k, c)` the column's entry of row `k`. -/
theorem hostSpread_at (d : FVec Ideal S8192x1 .f32) (k : Fin 8192) (c : Fin 128) :
    broadcastInDim S8192x128 ![0, 1] bcast_S8192x1_S8192x128_0_1 d (ix2 k c) = d (ix2 k (0 : Fin 1)) :=
  Cert.ColumnLayout.broadcastInDim_a1_ab_apply bcast_S8192x1_S8192x128_0_1 d k c

/-- The product entry by entry. -/
theorem hostScale_at (x y : FVec Ideal S8192x128 .f32) (k : Fin 8192) (c : Fin 128) :
    mulf x y (ix2 k c) = x (ix2 k c) * y (ix2 k c) := rfl

/-- The bias vector viewed as one row: at `(0, c)` the vector at `c`. -/
theorem hostBiasRow_at (b : FVec Ideal S128 .f32) (u : Fin 1) (c : Fin 128) :
    shapeCast S1x128 b shapeCasts_S128_S1x128 (ix2 u c) = b (ix1 c) :=
  shapeCast_a_1a_apply b shapeCasts_S128_S1x128 u c

end Cert.KernelIdeal.Pay

end
-- ==== Proof.LibWhole.lean ====
/-
  Two general facts used when a kernel body fills a whole buffer in one store and reads it back.

  * A buffer whose LAST write covers the whole shape (the unit rectangle at zero offsets, of the shape's own sizes) reads
    back as that write's payload, whatever was written before and whatever the buffer held.
  * One plane broadcast over many: an array of shape [1, a, b] broadcast to [m, a, b] reads, at (p, i, j), the plane at
    (0, i, j).
  * A sum over `a * b` consecutive indices is the sum over `a` chunks of the sums over the `b` indices of each chunk.
-/
import Idealize.ShloMosaic.Lib.Pipeline.Value
import Idealize.ShloMosaic.Lib.ValueIdx
import Idealize.ShloMosaic.Lib.ValueLayout

set_option maxRecDepth 16384

noncomputable section

namespace Cert.NonLocal.Lib

open Idealize.ShloMosaic Idealize.ShloMosaic.ValueIdx
open scoped BigOperators

variable {Val : EltTy → Type} {S : Shape} {e : EltTy}

/-- After a last write through the whole-shape rectangle, the buffer reads as that write's payload. -/
theorem read_writes_cons_whole [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A `[1, a, b]` array broadcast to `[m, a, b]` reads, at `(p, i, j)`, the operand's one plane at `(i, j)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Summing over `a * b` indices chunk by chunk: chunk `q` holds the indices `b * q + r`, `r < b`. -/
theorem sum_chunks {M : Type*} [AddCommMonoid M] (a b : ℕ) (f : Fin (a * b) → M) :
    ∑ n : Fin (a * b), f n
      = ∑ q : Fin a, ∑ r : Fin b, f ⟨b * q.val + r.val, by
          have hq := q.isLt; have hr := r.isLt
          calc b * q.val + r.val < b * q.val + b := by omega
            _ = b * (q.val + 1) := by ring
            _ ≤ b * a := Nat.mul_le_mul_left b hq
            _ = a * b := Nat.mul_comm b a⟩ := by
  refine ((finProdFinEquiv (m := a) (n := b)).sum_comp f).symm.trans ?_
  rw [Fintype.sum_prod_type]
  refine Finset.sum_congr rfl fun q _ => Finset.sum_congr rfl fun r _ => congrArg f (Fin.ext ?_)
  show r.val + b * q.val = b * q.val + r.val
  omega

end Cert.NonLocal.Lib

end
-- ==== Proof.AccAlgebra.lean ====
/-
  The row of block products accumulated left to right, and the sum over a row taken block by block.

  A row of 8192 terms is cut into four consecutive blocks of 2048. The accumulator starts at zero and takes the four
  block sums in order; the self-loop's term is added once, right after the block whose number is the row's own block
  number. Addition of extended reals is commutative and associative (with zero neutral), so the order in which the
  five summands arrive does not matter: the result is the whole row sum plus the self-loop's term, with no
  finiteness needed. Read through the specification's definitions, that is the layer's output.
-/
import proofs.«103349_j29557964931202_1_alg».proof.Proof.Spec
import proofs.«103349_j29557964931202_1_alg».proof.Proof.LibWhole

noncomputable section

namespace Cert.Acc

open Idealize.ShloMosaic Idealize.ShloMosaic.ValueIdx
open scoped BigOperators

/-! ## Four block sums and the self-loop's term, in the four orders of arrival -/

section Arrival
variable {M : Type*} [AddCommMonoid M] (f : Fin 4 → M) (s : M)

/-- The self-loop's term arrives after block 0. -/
theorem acc_row0 : ((((0 + f 0) + s) + f 1) + f 2) + f 3 = (∑ k : Fin 4, f k) + s := by
  rw [Fin.sum_univ_four, zero_add]
  abel

/-- The self-loop's term arrives after block 1. -/
theorem acc_row1 : ((((0 + f 0) + f 1) + s) + f 2) + f 3 = (∑ k : Fin 4, f k) + s := by
  rw [Fin.sum_univ_four, zero_add]
  abel

/-- The self-loop's term arrives after block 2. -/
theorem acc_row2 : ((((0 + f 0) + f 1) + f 2) + s) + f 3 = (∑ k : Fin 4, f k) + s := by
  rw [Fin.sum_univ_four, zero_add]
  abel

/-- The self-loop's term arrives after block 3. -/
theorem acc_row3 : ((((0 + f 0) + f 1) + f 2) + f 3) + s = (∑ k : Fin 4, f k) + s := by
  rw [Fin.sum_univ_four, zero_add]

/-- One step of the accumulation in block row `i`: add block `k`'s sum, and after it the self-loop's term when
    `k` is the row's own block. -/
def step (i : Fin 4) (a : M) (k : Fin 4) : M := if i = k then (a + f k) + s else a + f k

/-- The four steps from zero give the whole sum plus the self-loop's term, whichever block row it is. -/
theorem accumulate_four (i : Fin 4) :
    step f s i (step f s i (step f s i (step f s i 0 0) 1) 2) 3 = (∑ k : Fin 4, f k) + s := by
  fin_cases i
  · exact acc_row0 f s
  · exact acc_row1 f s
  · exact acc_row2 f s
  · exact acc_row3 f s

end Arrival

/-! ## A row sum, block by block -/

/-- Entry `kk` of block `kb` is entry `2048 · kb + kk` of the row. -/
theorem chunk_lt (kb : Fin 4) (kk : Fin 2048) : 2048 * kb.val + kk.val < 8192 := by
  have h1 := kb.isLt
  have h2 := kk.isLt
  omega

/-- A sum over a row of 8192 terms is the sum over its four blocks of the sums over each block's 2048 terms. -/
theorem chunked_sum {M : Type*} [AddCommMonoid M] (g : Fin 8192 → M) :
    ∑ k : Fin 8192, g k = ∑ kb : Fin 4, ∑ kk : Fin 2048, g ⟨2048 * kb.val + kk.val, chunk_lt kb kk⟩ :=
  Cert.NonLocal.Lib.sum_chunks 4 2048 g

/-! ## The layer's output from the accumulated row -/

/-- The block-by-block row sum of A against the scaled projected features, plus the self-loop's term, scaled by the
    row's inverse square root and shifted by the bias, is the specification's output. -/
theorem out_of_acc (X : Cert.Spec.SX.Idx → EReal) (A : Cert.Spec.SA.Idx → EReal) (W : Cert.Spec.SW.Idx → EReal)
    (b : Cert.Spec.SB.Idx → EReal) (i : Fin 8192) (c : Fin 128) :
    ((∑ kb : Fin 4, ∑ kk : Fin 2048,
          A (ix2 i ⟨2048 * kb.val + kk.val, chunk_lt kb kk⟩) * Cert.Spec.ssup X A W ⟨2048 * kb.val + kk.val, chunk_lt kb kk⟩ c)
        + Cert.Spec.ssup X A W i c) * Cert.Spec.dinv A i + b (ix1 c)
      = Cert.Spec.out X A W b i c := by
  unfold Cert.Spec.out
  rw [chunked_sum (fun k => A (ix2 i k) * Cert.Spec.ssup X A W k c)]

end Cert.Acc

end
-- ==== Proof.IdealStage.lean ====
/-
  The host stage between the two regions, and the second region's result as the layer's output.

  When the second region is entered the core's buffers hold: the adjacency matrix as launched (the first region only
  reads it, and no host operation writes it); the column of masked inverse square roots of the degrees that the first
  region left; the projected features X · W with row k scaled by the inverse square root of node k, which the host
  computes as a projection, a spread of the column along the feature columns and an entry-by-entry product; and the
  bias vector viewed as one row. The second region's result array is a function of exactly these four: the row of
  block products of the adjacency matrix with the scaled features, accumulated block by block with the self-loop's
  term, scaled by the row's inverse square root and shifted by the bias. Read through the specification's
  definitions, that is the layer's output at every entry.
-/
import proofs.«103349_j29557964931202_1_alg».proof.Proof.IdealRun
import proofs.«103349_j29557964931202_1_alg».proof.Proof.IdealValue0
import proofs.«103349_j29557964931202_1_alg».proof.Proof.HostOps
import proofs.«103349_j29557964931202_1_alg».proof.Proof.AccAlgebra
import proofs.«103349_j29557964931202_1_alg».proof.Proof.Spec
import Idealize.ShloMosaic.Lib.StableHlo.Run

noncomputable section

namespace Cert.KernelIdeal.Hand

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen
open scoped BigOperators

variable (m : (ℓ : Loc nD τ sig) → Buf (Elt Ideal) ℓ) (ρ : Dev nD → PrngReg) (c : Dev nD)

/-- The four argument arrays at launch, read as functions of their indices. -/
abbrev argX : Cert.Spec.SX.Idx → EReal := (m ((c.tc : Thread nD τ).loc main_arg0) : S8192x128.Idx → EReal)
abbrev argA : Cert.Spec.SA.Idx → EReal := (m ((c.tc : Thread nD τ).loc main_arg1) : S8192x8192.Idx → EReal)
abbrev argW : Cert.Spec.SW.Idx → EReal := (m ((c.tc : Thread nD τ).loc main_arg2) : S128x128.Idx → EReal)
abbrev argB : Cert.Spec.SB.Idx → EReal := (m ((c.tc : Thread nD τ).loc main_arg3) : S128.Idx → EReal)

/-- The adjacency matrix when the second region is entered is the launch's: the first region only reads it and no
    host operation writes it. -/
theorem V2_arg1 : (V2 m ρ c main_arg1 : S8192x8192.Idx → EReal) = argA m c :=
  calc (V2 m ρ c main_arg1 : S8192x8192.Idx → EReal)
    _ = W1 m ρ c (Proc.devRef .tc main_arg1) :=
        StableHlo.after_of_writes_sub hostOps1 _ hostOps1_writes (r := main_arg1) (by decide)
    _ = W0 m ρ c (Proc.devRef .tc main_arg1) :=
        (W1_arr m ρ c 0).trans (((dat0 (V0 m ρ) c).arrAt_in 0 rfl _).trans (A_eq0 (V0 m ρ) c 0))
    _ = argA m c := rfl

/-- The column of inverse square roots when the second region is entered: what the first region left, which no
    host operation writes. -/
theorem V2_v0 : (V2 m ρ c main_v0 : S8192x1.Idx → EReal)
    = fun y => Cert.Spec.dinv (argA m c) ⟨(y 0).val, ValueIdx.idx2_lt0 y⟩ :=
  calc (V2 m ρ c main_v0 : S8192x1.Idx → EReal)
    _ = W1 m ρ c (Proc.devRef .tc main_v0) :=
        StableHlo.after_of_writes_sub hostOps1 _ hostOps1_writes (r := main_v0) (by decide)
    _ = (dat0 (V0 m ρ) c).arrAt 1 cfg0.N := W1_arr m ρ c 1
    _ = _ := degCol_final (V0 m ρ) c (argA m c) rfl

/-- The scaled projected features when the second region is entered: the host projects the features, spreads the
    column of inverse square roots along the feature columns and multiplies, so row `k` of `X · W` arrives scaled by
    the inverse square root of node `k`. -/
theorem V2_v3_at (k : Fin 8192) (cc : Fin 128) :
    (V2 m ρ c main_v3 : S8192x128.Idx → EReal) (ix2 k cc)
      = Cert.Spec.ssup (argX m c) (argA m c) (argW m c) k cc := by
  have hcol : (W1 m ρ c (Proc.devRef .tc main_v0) : S8192x1.Idx → EReal)
      = fun y => Cert.Spec.dinv (argA m c) ⟨(y 0).val, ValueIdx.idx2_lt0 y⟩ :=
    (W1_arr m ρ c 1).trans (degCol_final (V0 m ρ) c (argA m c) rfl)
  have hX : (W1 m ρ c (Proc.devRef .tc main_arg0) : S8192x128.Idx → EReal) = argX m c :=
    W1_of_ne m ρ c main_arg0 (by decide)
  have hW : (W1 m ρ c (Proc.devRef .tc main_arg2) : S128x128.Idx → EReal) = argW m c :=
    W1_of_ne m ρ c main_arg2 (by decide)
  show StableHlo.after hostOps1 (W1 m ρ c) (Proc.devRef .tc main_v3) (ix2 k cc) = _
  after_results
  rw [hcol, hX, hW]
  refine (Cert.KernelIdeal.Pay.hostScale_at _ _ k cc).trans ?_
  rw [Cert.KernelIdeal.Pay.hostProjection_at, Cert.KernelIdeal.Pay.hostSpread_at]
  rfl

/-- The bias when the second region is entered: the host views the bias vector as one row. -/
theorem V2_v4_at (cc : Fin 128) :
    (V2 m ρ c main_v4 : S1x128.Idx → EReal) (ix2 (0 : Fin 1) cc) = argB m c (ix1 cc) := by
  have hb : (W1 m ρ c (Proc.devRef .tc main_arg3) : S128.Idx → EReal) = argB m c :=
    W1_of_ne m ρ c main_arg3 (by decide)
  show StableHlo.after hostOps1 (W1 m ρ c) (Proc.devRef .tc main_v4) (ix2 (0 : Fin 1) cc) = _
  after_results
  show shapeCast S1x128 (W1 m ρ c (Proc.devRef .tc main_arg3) : S128.Idx → EReal) shapeCasts_S128_S1x128 (ix2 (0 : Fin 1) cc) = _
  rw [hb]
  exact Cert.KernelIdeal.Pay.hostBiasRow_at (argB m c) (0 : Fin 1) cc

/-- The second region's result array is the layer's output, given its value as a function of the region's entry
    contents: the entry contents are the adjacency matrix, the scaled projected features, the column of inverse
    square roots and the bias row, and the row of block products accumulated with the self-loop's term, scaled and
    shifted, is the specification's output. -/
theorem kernel_result
    (h_out_final : ∀ (A : Cert.Spec.SA.Idx → EReal) (T : Cert.Spec.SX.Idx → EReal) (Dc : S8192x1.Idx → EReal)
      (Br : S1x128.Idx → EReal),
      (V2 m ρ c main_arg1 : S8192x8192.Idx → EReal) = A → (V2 m ρ c main_v3 : S8192x128.Idx → EReal) = T →
      (V2 m ρ c main_v0 : S8192x1.Idx → EReal) = Dc → (V2 m ρ c main_v4 : S1x128.Idx → EReal) = Br →
      ((dat1 (F := Ideal) (V2 m ρ) c).arrAt 4 cfg1.N : S8192x128.Idx → EReal)
        = fun y =>
            ((∑ kb : Fin 4, ∑ kk : Fin 2048,
                  A (ix2 (⟨(y 0).val, ValueIdx.idx2_lt0 y⟩ : Fin 8192) ⟨2048 * kb.val + kk.val, Cert.Acc.chunk_lt kb kk⟩)
                    * T (ix2 ⟨2048 * kb.val + kk.val, Cert.Acc.chunk_lt kb kk⟩ (⟨(y 1).val, ValueIdx.idx2_lt1 y⟩ : Fin 128)))
                + T (ix2 (⟨(y 0).val, ValueIdx.idx2_lt0 y⟩ : Fin 8192) (⟨(y 1).val, ValueIdx.idx2_lt1 y⟩ : Fin 128)))
              * Dc (ix2 (⟨(y 0).val, ValueIdx.idx2_lt0 y⟩ : Fin 8192) (0 : Fin 1))
              + Br (ix2 (0 : Fin 1) (⟨(y 1).val, ValueIdx.idx2_lt1 y⟩ : Fin 128))) :
    ((dat1 (F := Ideal) (V2 m ρ) c).arrAt 4 cfg1.N : S8192x128.Idx → EReal)
      = Cert.Spec.G (argX m c) (argA m c) (argW m c) (argB m c) := by
  have hT : (V2 m ρ c main_v3 : S8192x128.Idx → EReal)
      = fun y => Cert.Spec.ssup (argX m c) (argA m c) (argW m c) ⟨(y 0).val, ValueIdx.idx2_lt0 y⟩ ⟨(y 1).val, ValueIdx.idx2_lt1 y⟩ := by
    funext y
    obtain ⟨p, q, rfl⟩ : ∃ (p : Fin 8192) (q : Fin 128), y = ix2 p q := ⟨y 0, y 1, ValueIdx.eq_ix2 y⟩
    exact V2_v3_at m ρ c p q
  have hB : (V2 m ρ c main_v4 : S1x128.Idx → EReal)
      = fun y => argB m c (ix1 ⟨(y 1).val, ValueIdx.idx2_lt1 y⟩) := by
    funext y
    obtain ⟨u, q, rfl⟩ : ∃ (u : Fin 1) (q : Fin 128), y = ix2 u q := ⟨y 0, y 1, ValueIdx.eq_ix2 y⟩
    obtain rfl : u = 0 := Subsingleton.elim _ _
    exact V2_v4_at m ρ c q
  rw [h_out_final _ _ _ _ (V2_arg1 m ρ c) hT (V2_v0 m ρ c) hB]
  funext y
  exact Cert.Acc.out_of_acc (argX m c) (argA m c) (argW m c) (argB m c) ⟨(y 0).val, ValueIdx.idx2_lt0 y⟩ ⟨(y 1).val, ValueIdx.idx2_lt1 y⟩

end Cert.KernelIdeal.Hand

end
-- ==== Proof.IdealPieces.lean ====
/-
  What each case of the layer kernel's body leaves, as compositions of the body's four pure payloads.

  Every load and store of the body is of a whole buffer, so a load after a store reads that store's payload and the
  last store into a buffer is what it holds. With zero the zero block, prod a = a + (adjacency block · feature block),
  self a = a + feature block, and fin a = a · column + bias row:
    the accumulator ends at  prod zero  or  prod (carried)  — followed by self on the diagonal —,
    and at the row's last block the output block is fin of the accumulator.
-/
import proofs.«103349_j29557964931202_1_alg».proof.Proof.IdealFrame1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem hz00 : (![0, 0] : Fin 2 → Nat) = fun _ => 0 := by funext a; match a with | ⟨0, _⟩ => rfl | ⟨1, _⟩ => rfl

/-- A load through the whole-shape rectangle of what a list of stores left whose LAST store was through the whole-shape
    rectangle reads that store's payload. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

set_option maxHeartbeats 1000000 in
/-- Case A: the accumulator ends at the block product over zero, plus the features' own block. -/
theorem sout1_A_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : cond1_1 i) (hc2 : ¬cond1_2 i)
    (x0 : Vec F S2048x2048 .f32) (x1 : Vec F S2048x128 .f32) (x2 : Vec F S2048x1 .f32) (x3 : Vec F S1x128 .f32) :
    sout1_A c i arg2 harg2 arg3 harg3 arg4 harg4 arg5 harg5 arg6 harg6 arg7 harg7 hc0 hc1 hc2 x0 x1 x2 x3 = k1_pay3 (k1_pay2 x0 x1 (k1_pay1 (F := F))) x1 := by
  unfold sout1_A
  rw [View.read_writes_eq_canon _ _ _ (scover1_A c i arg2 harg2 arg3 harg3 arg4 harg4 arg5 harg5 arg6 harg6 arg7 harg7 hc0 hc1 hc2 x0 x1 x2 x3)]
  unfold kernelRun1_A
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case B: the accumulator ends at the block product over zero. -/
theorem sout1_B_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond1_0 i) (hc1 : ¬cond1_1 i) (hc2 : ¬cond1_2 i)
    (x0 : Vec F S2048x2048 .f32) (x1 : Vec F S2048x128 .f32) (x2 : Vec F S2048x1 .f32) (x3 : Vec F S1x128 .f32) :
    sout1_B c i arg2 harg2 arg3 harg3 arg4 harg4 arg5 harg5 arg6 harg6 arg7 harg7 hc0 hc1 hc2 x0 x1 x2 x3 = k1_pay2 x0 x1 (k1_pay1 (F := F)) := by
  unfold sout1_B
  rw [View.read_writes_eq_canon _ _ _ (scover1_B c i arg2 harg2 arg3 harg3 arg4 harg4 arg5 harg5 arg6 harg6 arg7 harg7 hc0 hc1 hc2 x0 x1 x2 x3)]
  unfold kernelRun1_B
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case C: the accumulator ends at the carried sum plus the block product, plus the features' own block. -/
theorem sout1_C_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : ¬cond1_2 i)
    (x0 : Vec F S2048x2048 .f32) (x1 : Vec F S2048x128 .f32) (x2 : Vec F S2048x1 .f32) (x3 : Vec F S1x128 .f32) (xs0 : Vec F S2048x128 .f32) :
    sout1_C c i arg2 harg2 arg3 harg3 arg4 harg4 arg5 harg5 arg6 harg6 arg7 harg7 hc0 hc1 hc2 x0 x1 x2 x3 xs0 = k1_pay3 (k1_pay2 x0 x1 xs0) x1 := by
  unfold sout1_C
  rw [View.read_writes_eq_canon _ _ _ (scover1_C c i arg2 harg2 arg3 harg3 arg4 harg4 arg5 harg5 arg6 harg6 arg7 harg7 hc0 hc1 hc2 x0 x1 x2 x3 xs0)]
  unfold kernelRun1_C
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case D: the accumulator ends at the carried sum plus the block product. -/
theorem sout1_D_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : ¬cond1_2 i)
    (x0 : Vec F S2048x2048 .f32) (x1 : Vec F S2048x128 .f32) (x2 : Vec F S2048x1 .f32) (x3 : Vec F S1x128 .f32) (xs0 : Vec F S2048x128 .f32) :
    sout1_D c i arg2 harg2 arg3 harg3 arg4 harg4 arg5 harg5 arg6 harg6 arg7 harg7 hc0 hc1 hc2 x0 x1 x2 x3 xs0 = k1_pay2 x0 x1 xs0 := by
  unfold sout1_D
  rw [View.read_writes_eq_canon _ _ _ (scover1_D c i arg2 harg2 arg3 harg3 arg4 harg4 arg5 harg5 arg6 harg6 arg7 harg7 hc0 hc1 hc2 x0 x1 x2 x3 xs0)]
  unfold kernelRun1_D
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case E: the accumulator ends at the carried sum plus the block product, plus the features' own block. -/
theorem sout1_E_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) :
    sout1_E c i arg2 harg2 arg3 harg3 arg4 harg4 arg5 harg5 arg6 harg6 arg7 harg7 hc0 hc1 hc2 x0 x1 x2 x3 xs0 = k1_pay3 (k1_pay2 x0 x1 xs0) x1 := by
  unfold sout1_E
  rw [View.read_writes_eq_canon _ _ _ (scover1_E c i arg2 harg2 arg3 harg3 arg4 harg4 arg5 harg5 arg6 harg6 arg7 harg7 hc0 hc1 hc2 x0 x1 x2 x3 xs0)]
  unfold kernelRun1_E
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case E: the output block ends at the finished accumulator scaled by the column and shifted by the bias row. -/
theorem out1_E_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : cond1_1 i) (hc2 : cond1_2 i)
    (x0 : Vec F S2048x2048 .f32) (x1 : Vec F S2048x128 .f32) (x2 : Vec F S2048x1 .f32) (x3 : Vec F S1x128 .f32) (xs0 : Vec F S2048x128 .f32) :
    out1_E c i arg2 harg2 arg3 harg3 arg4 harg4 arg5 harg5 arg6 harg6 arg7 harg7 hc0 hc1 hc2 x0 x1 x2 x3 xs0 = k1_pay4 (k1_pay3 (k1_pay2 x0 x1 xs0) x1) x2 x3 := by
  unfold out1_E
  rw [View.read_writes_eq_canon _ _ _ (cover1_E c i arg2 harg2 arg3 harg3 arg4 harg4 arg5 harg5 arg6 harg6 arg7 harg7 hc0 hc1 hc2 x0 x1 x2 x3 xs0)]
  unfold kernelRun1_E
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case G: the accumulator ends at the carried sum plus the block product. -/
theorem sout1_G_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) :
    sout1_G c i arg2 harg2 arg3 harg3 arg4 harg4 arg5 harg5 arg6 harg6 arg7 harg7 hc0 hc1 hc2 x0 x1 x2 x3 xs0 = k1_pay2 x0 x1 xs0 := by
  unfold sout1_G
  rw [View.read_writes_eq_canon _ _ _ (scover1_G c i arg2 harg2 arg3 harg3 arg4 harg4 arg5 harg5 arg6 harg6 arg7 harg7 hc0 hc1 hc2 x0 x1 x2 x3 xs0)]
  unfold kernelRun1_G
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

set_option maxHeartbeats 1000000 in
/-- Case G: the output block ends at the finished accumulator scaled by the column and shifted by the bias row. -/
theorem out1_G_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond1_0 i) (hc1 : ¬cond1_1 i) (hc2 : cond1_2 i)
    (x0 : Vec F S2048x2048 .f32) (x1 : Vec F S2048x128 .f32) (x2 : Vec F S2048x1 .f32) (x3 : Vec F S1x128 .f32) (xs0 : Vec F S2048x128 .f32) :
    out1_G c i arg2 harg2 arg3 harg3 arg4 harg4 arg5 harg5 arg6 harg6 arg7 harg7 hc0 hc1 hc2 x0 x1 x2 x3 xs0 = k1_pay4 (k1_pay2 x0 x1 xs0) x2 x3 := by
  unfold out1_G
  rw [View.read_writes_eq_canon _ _ _ (cover1_G c i arg2 harg2 arg3 harg3 arg4 harg4 arg5 harg5 arg6 harg6 arg7 harg7 hc0 hc1 hc2 x0 x1 x2 x3 xs0)]
  unfold kernelRun1_G
  dsimp only
  (try sl_unfold_words)
  rw [View.canon_cons_unit_zero hz00]
  simp only [View.readAt_eq_ld, harg2.read_unread, harg3.read_unread, harg4.read_unread, harg5.read_unread, harg7.read_unread,
    View.ld_unit_zero (S := S2048x128) hz00, View.ld_unit_zero (S := S2048x2048) hz00, View.ld_unit_zero (S := S2048x1) hz00, View.ld_unit_zero (S := S1x128) hz00,
    readCov_cons_unit_zero (S := S2048x128) _ hz00, View.readCov_unit_zero (S := S2048x128) _ hz00]

end Cert.KernelIdeal.Hand

end
-- ==== Proof.LayerPay.lean ====
/-
  The layer kernel's arithmetic, read entry by entry on the extended reals.

  The kernel holds a 2048 × 2048 block of the adjacency matrix, the matching 2048 rows of the scaled features, and an
  accumulator of 2048 × 128 entries. It clears the accumulator; adds to it the block's product with the feature rows,
  a sum of 2048 products per entry (changing the number format of the factors does nothing on the extended reals, and
  the product is taken into a zero array, so nothing but the sum is left); adds the feature rows themselves on the
  diagonal blocks; and at the last block of a row of blocks scales each accumulator row by that row's column entry
  and adds the bias row.
-/
import proofs.«103349_j29557964931202_1_alg».proof.Proof.Gen.KernelIdeal.Skeleton
import proofs.«103349_j29557964931202_1_alg».proof.Proof.ColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-- The cleared accumulator: zero at every entry. -/
theorem pay1_at (r : Fin 2048) (c : Fin 128) : k1_pay1 (F := Ideal) (ix2 r c) = 0 := by
  unfold k1_pay1
  rw [shapeCast_self]
  exact Ideal.ofBits_zero_f32

/-- The left factor's index of the block product keeps the output's row … -/
theorem blockProduct_lhs_row (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide),
    dif_pos (show (0 : Fin S2048x2048.rank) ∈ dot_S2048x2048_S2048x128_S2048x128_1_0_0_1_n_n.lhsNonContracting by decide)]
  rfl

/-- … and the right factor's index keeps the output's column. -/
theorem blockProduct_rhs_col (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide),
    dif_pos (show (1 : Fin S2048x128.rank) ∈ dot_S2048x2048_S2048x128_S2048x128_1_0_0_1_n_n.rhsNonContracting by decide)]
  rfl

/-- The block's product with the feature rows, taken into a zero array, at `(r, c)`: the sum over the block's 2048
    columns `k` of the block at `(r, k)` times the feature rows at `(k, c)`. -/
theorem blockProduct_at (l : FVec Ideal S2048x2048 .bf16) (f : FVec Ideal S2048x128 .bf16) (r : Fin 2048) (c : Fin 128) :
    matmul (F := Ideal) dot_S2048x2048_S2048x128_S2048x128_1_0_0_1_n_n none l f (constant S2048x128 .f32 0x00000000#32) (ix2 r c)
      = ∑ k : Fin 2048, l (ix2 r k) * f (ix2 k c) := by
  simp only [matmul]
  rw [Ideal.matmul_constant_zero_apply,
    ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 r c)
      ((contrEquiv1 dot_S2048x2048_S2048x128_S2048x128_1_0_0_1_n_n 2048 rfl rfl).symm k) = ix2 r k :=
    funext fun a => Fin.ext (by
      match a with
      | ⟨0, _⟩ => exact blockProduct_lhs_row _ _
      | ⟨1, _⟩ => exact (dot_S2048x2048_S2048x128_S2048x128_1_0_0_1_n_n.lhsIdx_val_of_single rfl _ _).trans hk)
  have er : dot_S2048x2048_S2048x128_S2048x128_1_0_0_1_n_n.rhsIdx (ix2 r c)
      ((contrEquiv1 dot_S2048x2048_S2048x128_S2048x128_1_0_0_1_n_n 2048 rfl rfl).symm k) = ix2 k c :=
    funext fun a => Fin.ext (by
      match a with
      | ⟨0, _⟩ => exact (dot_S2048x2048_S2048x128_S2048x128_1_0_0_1_n_n.rhsIdx_val_of_single rfl _ _).trans hk
      | ⟨1, _⟩ => exact blockProduct_rhs_col _ _)
  rw [el, er]

/-- The accumulator after a block: what it held plus the block's product with the feature rows. -/
theorem pay2_at (v3 : Vec Ideal S2048x2048 .f32) (v5 v8 : Vec Ideal S2048x128 .f32) (r : Fin 2048) (c : Fin 128) :
    k1_pay2 v3 v5 v8 (ix2 r c) = v8 (ix2 r c) + ∑ k : Fin 2048, v3 (ix2 r k) * v5 (ix2 k c) := by
  unfold k1_pay2
  rw [shapeCast_self, shapeCast_self]
  refine (congrArg (fun z => v8 (ix2 r c) + z)
    (blockProduct_at (truncf .bf16 v3 bitsLt_bf16_f32) (truncf .bf16 v5 bitsLt_bf16_f32) r c)).trans ?_
  rfl

/-- On a diagonal block the feature rows are added to the accumulator. -/
theorem pay3_at (v20 v21 : Vec Ideal S2048x128 .f32) (r : Fin 2048) (c : Fin 128) :
    k1_pay3 v20 v21 (ix2 r c) = v20 (ix2 r c) + v21 (ix2 r c) := by
  unfold k1_pay3
  rw [shapeCast_self, shapeCast_self]
  rfl

/-- At the last block of a row of blocks: each accumulator row scaled by its column entry, plus the bias row. -/
theorem pay4_at (v20 : Vec Ideal S2048x128 .f32) (v21 : Vec Ideal S2048x1 .f32) (v25 : Vec Ideal S1x128 .f32)
    (r : Fin 2048) (c : Fin 128) :
    k1_pay4 v20 v21 v25 (ix2 r c) = v20 (ix2 r c) * v21 (ix2 r (0 : Fin 1)) + v25 (ix2 (0 : Fin 1) c) := by
  unfold k1_pay4
  rw [shapeCast_self, shapeCast_self]
  show v20 (ix2 r c) * broadcastTo S2048x128 v21 broadcasts_S2048x1_S2048x128 (ix2 r c)
      + broadcastTo S2048x128 v25 broadcasts_S1x128_S2048x128 (ix2 r c) = _
  rw [Cert.ColumnLayout.broadcastTo_a1_ab_apply, broadcastTo_1b_ab_apply]

end Cert.KernelIdeal.Pay

end
-- ==== Proof.AccFold.lean ====
/-
  The accumulator of a block row after each of its four points, and the layer's output in block form.

  In block row ib the accumulator takes block sum 0 from zero, then block sums 1, 2, 3, and right after block sum ib
  the self-loop's term. After point k of the row it holds the left-to-right partial sum up to block k; after point 3
  that is the whole row sum plus the self-loop's term. The output entry is that number scaled by the row's column
  entry and shifted by the bias entry.
-/
import proofs.«103349_j29557964931202_1_alg».proof.Proof.AccAlgebra

noncomputable section

namespace Cert.Acc

open Idealize.ShloMosaic Idealize.ShloMosaic.ValueIdx
open scoped BigOperators

section Partial
variable {M : Type*} [AddCommMonoid M] (f : Fin 4 → M) (s : M) (ib : Fin 4)

/-- The accumulator of block row `ib` after its point `k` (the points of a row are numbered 0 to 3). -/
def partialAcc : ℕ → M
  | 0 => step f s ib 0 0
  | k + 1 => step f s ib (partialAcc k) ⟨(k + 1) % 4, Nat.mod_lt _ (by decide)⟩

theorem partialAcc_zero : partialAcc f s ib 0 = step f s ib 0 0 := rfl

theorem partialAcc_succ (k : ℕ) :
    partialAcc f s ib (k + 1) = step f s ib (partialAcc f s ib k) ⟨(k + 1) % 4, Nat.mod_lt _ (by decide)⟩ := rfl

/-- One equation for every point of the row: point 0 starts from zero, a later point from the point before it. -/
theorem partialAcc_eq (k : ℕ) (hk : k < 4) :
    partialAcc f s ib k = step f s ib (if k = 0 then 0 else partialAcc f s ib (k - 1)) ⟨k, hk⟩ := by
  cases k with
  | zero =>
    rw [if_pos rfl]
    rfl
  | succ k =>
    rw [partialAcc_succ, if_neg (Nat.succ_ne_zero k)]
    have e : (⟨(k + 1) % 4, Nat.mod_lt _ (by decide)⟩ : Fin 4) = ⟨k + 1, hk⟩ := Fin.ext (Nat.mod_eq_of_lt hk)
    rw [e]
    rfl

/-- After the row's last point: the whole row sum plus the self-loop's term. -/
theorem partialAcc_three : partialAcc f s ib 3 = (∑ k : Fin 4, f k) + s :=
  accumulate_four f s ib

end Partial

/-- Block `kb`'s part of row `i` of the adjacency matrix against column `cc` of the scaled features. -/
def blockTerm (A : Cert.Spec.SA.Idx → EReal) (T : Cert.Spec.SX.Idx → EReal) (i : Fin 8192) (cc : Fin 128) (kb : Fin 4) : EReal :=
  ∑ kk : Fin 2048, A (ix2 i ⟨2048 * kb.val + kk.val, chunk_lt kb kk⟩) * T (ix2 ⟨2048 * kb.val + kk.val, chunk_lt kb kk⟩ cc)

/-- The output entry in block form: the block-by-block row sum plus the self-loop's term, scaled by the row's column
    entry, plus the bias entry. -/
def blockOut (A : Cert.Spec.SA.Idx → EReal) (T : Cert.Spec.SX.Idx → EReal) (Dc : (⟨2, ![8192, 1]⟩ : Shape).Idx → EReal)
    (Br : (⟨2, ![1, 128]⟩ : Shape).Idx → EReal) (i : Fin 8192) (cc : Fin 128) : EReal :=
  ((∑ kb : Fin 4, blockTerm A T i cc kb) + T (ix2 i cc)) * Dc (ix2 i (0 : Fin 1)) + Br (ix2 (0 : Fin 1) cc)

theorem blockOut_eq (A : Cert.Spec.SA.Idx → EReal) (T : Cert.Spec.SX.Idx → EReal) (Dc : (⟨2, ![8192, 1]⟩ : Shape).Idx → EReal)
    (Br : (⟨2, ![1, 128]⟩ : Shape).Idx → EReal) (i : Fin 8192) (cc : Fin 128) :
    blockOut A T Dc Br i cc
      = ((∑ kb : Fin 4, ∑ kk : Fin 2048,
            A (ix2 i ⟨2048 * kb.val + kk.val, chunk_lt kb kk⟩) * T (ix2 ⟨2048 * kb.val + kk.val, chunk_lt kb kk⟩ cc))
          + T (ix2 i cc)) * Dc (ix2 i (0 : Fin 1)) + Br (ix2 (0 : Fin 1) cc) := rfl

end Cert.Acc

end
-- ==== Proof.IdealAcc1.lean ====
/-
  The layer region's accumulator, point by point, on the extended reals.

  Point t = 4 ib + kb of the 4 × 4 grid holds block (ib, kb) of the adjacency matrix, block kb of the scaled
  features, block ib of the column and the bias row. Entry (r, cc) of the accumulator belongs to row i = 2048 ib + r
  of the matrix. After the point it holds the left-to-right partial sum, up to block kb, of the row's four block
  sums against column cc of the scaled features, with the row's own scaled-feature entry (the self-loop) added
  right after block ib. At the row's last point the output block holds that number scaled by the column's entry
  for row i and shifted by the bias entry for column cc.
-/
import proofs.«103349_j29557964931202_1_alg».proof.Proof.IdealFrame1
import proofs.«103349_j29557964931202_1_alg».proof.Proof.IdealPieces
import proofs.«103349_j29557964931202_1_alg».proof.Proof.LayerPay
import proofs.«103349_j29557964931202_1_alg».proof.Proof.AccFold
import proofs.«103349_j29557964931202_1_alg».proof.Proof.Spec
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## Which blocks a point holds -/

/-- The block indices of the five windows at point `t`, decided over the sixteen points: the matrix block is
    `(t / 4, t % 4)`, the feature block `t % 4`, the column block and the output block `t / 4`, the bias row whole. -/
theorem blockIndex1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The matrix block at point `t`: entry `(r, kk)` is the matrix at `(2048 (t / 4) + r, 2048 (t % 4) + kk)`. -/
theorem iblk1_0_at (c : Dev nD) (t : Fin cfg1.N) (r kk : Fin 2048) (i : S8192x8192.Idx)
    (h0 : (i 0).val = 2048 * (t.val / 4) + r.val) (h1 : (i 1).val = 2048 * (t.val % 4) + kk.val) :
    (iblk1 V c 0 t : Vec Ideal S2048x2048 .f32) (ix2 r kk) = (V c main_arg1 : S8192x8192.Idx → EReal) i := by
  obtain ⟨e0, e1, -⟩ := blockIndex1 t
  unfold iblk1
  rw [View.read_apply]
  show V c main_arg1 _ = V c main_arg1 i
  congr 1
  funext a
  apply Fin.ext
  match a with
  | ⟨0, _⟩ => show win1_0.index t 0 * 2048 + 1 * r.val = (i 0).val; rw [e0, h0]; omega
  | ⟨1, _⟩ => show win1_0.index t 1 * 2048 + 1 * kk.val = (i 1).val; rw [e1, h1]; omega

/-- The feature block at point `t`: entry `(kk, cc)` is the scaled features at `(2048 (t % 4) + kk, cc)`. -/
theorem iblk1_1_at (c : Dev nD) (t : Fin cfg1.N) (kk : Fin 2048) (cc : Fin 128) (i : S8192x128.Idx)
    (h0 : (i 0).val = 2048 * (t.val % 4) + kk.val) (h1 : (i 1).val = cc.val) :
    (iblk1 V c 1 t : Vec Ideal S2048x128 .f32) (ix2 kk cc) = (V c main_v3 : S8192x128.Idx → EReal) i := by
  obtain ⟨-, -, e0, e1, -⟩ := blockIndex1 t
  unfold iblk1
  rw [View.read_apply]
  show V c main_v3 _ = V c main_v3 i
  congr 1
  funext a
  apply Fin.ext
  match a with
  | ⟨0, _⟩ => show win1_1.index t 0 * 2048 + 1 * kk.val = (i 0).val; rw [e0, h0]; omega
  | ⟨1, _⟩ => show win1_1.index t 1 * 128 + 1 * cc.val = (i 1).val; rw [e1, h1]; omega

/-- The column block at point `t`: entry `(r, 0)` is the column at `(2048 (t / 4) + r, 0)`. -/
theorem iblk1_2_at (c : Dev nD) (t : Fin cfg1.N) (r : Fin 2048) (i : S8192x1.Idx)
    (h0 : (i 0).val = 2048 * (t.val / 4) + r.val) (h1 : (i 1).val = 0) :
    (iblk1 V c 2 t : Vec Ideal S2048x1 .f32) (ix2 r (0 : Fin 1)) = (V c main_v0 : S8192x1.Idx → EReal) i := by
  obtain ⟨-, -, -, -, e0, e1, -⟩ := blockIndex1 t
  unfold iblk1
  rw [View.read_apply]
  show V c main_v0 _ = V c main_v0 i
  congr 1
  funext a
  apply Fin.ext
  match a with
  | ⟨0, _⟩ => show win1_2.index t 0 * 2048 + 1 * r.val = (i 0).val; rw [e0, h0]; omega
  | ⟨1, _⟩ => show win1_2.index t 1 * 1 + 1 * 0 = (i 1).val; rw [e1, h1]

/-- The bias row at every point: entry `(0, cc)` is the bias row at `(0, cc)`. -/
theorem iblk1_3_at (c : Dev nD) (t : Fin cfg1.N) (cc : Fin 128) (i : S1x128.Idx)
    (h0 : (i 0).val = 0) (h1 : (i 1).val = cc.val) :
    (iblk1 V c 3 t : Vec Ideal S1x128 .f32) (ix2 (0 : Fin 1) cc) = (V c main_v4 : S1x128.Idx → EReal) i := by
  obtain ⟨-, -, -, -, -, -, e0, e1, -⟩ := blockIndex1 t
  unfold iblk1
  rw [View.read_apply]
  show V c main_v4 _ = V c main_v4 i
  congr 1
  funext a
  apply Fin.ext
  match a with
  | ⟨0, _⟩ => show win1_3.index t 0 * 1 + 1 * 0 = (i 0).val; rw [e0, h0]
  | ⟨1, _⟩ => show win1_3.index t 1 * 128 + 1 * cc.val = (i 1).val; rw [e1, h1]; omega

/-! ## What a point leaves, by the kind of point -/

/-- The second component of a pair that is known. -/
theorem snd_of_eq {α β : Type} {p : α × β} {a : α} {b : β} (h : p = (a, b)) : p.2 = b := by rw [h]
/-- The first component of a pair that is known. -/
theorem fst_of_eq {α β : Type} {p : α × β} {a : α} {b : β} (h : p = (a, b)) : p.1 = a := by rw [h]

/-- The accumulator a point inherits: what the point before left. -/
abbrev prevAcc (c : Dev nD) (t : Fin cfg1.N) : Vec Ideal S2048x128 .f32 :=
  (outsAt1 V c (t.val - 1) (Nat.lt_of_le_of_lt (Nat.sub_le _ _) t.isLt)).2

/-- First point of a row, on the diagonal: from zero, the block product, then the features' own block. -/
theorem acc_first_diag (c : Dev nD) (t : Fin cfg1.N) (h0 : t.val % 4 = 0) (h1 : t.val / 4 = t.val % 4) :
    (outsAt1 V c t.val t.isLt).2
      = k1_pay3 (k1_pay2 (iblk1 V c 0 t) (iblk1 V c 1 t) (k1_pay1 (F := Ideal))) (iblk1 V c 1 t) :=
  (snd_of_eq (outsAt1_A V c t h0 h1 (by omega))).trans (sout1_A_eq (F := Ideal) ..)

/-- First point of a row, off the diagonal: from zero, the block product. -/
theorem acc_first_off (c : Dev nD) (t : Fin cfg1.N) (h0 : t.val % 4 = 0) (h1 : ¬t.val / 4 = t.val % 4) :
    (outsAt1 V c t.val t.isLt).2 = k1_pay2 (iblk1 V c 0 t) (iblk1 V c 1 t) (k1_pay1 (F := Ideal)) :=
  (snd_of_eq (outsAt1_B V c t h0 h1 (by omega))).trans (sout1_B_eq (F := Ideal) ..)

/-- A later point of a row, on the diagonal: the inherited sum, the block product, then the features' own block. -/
theorem acc_next_diag (c : Dev nD) (t : Fin cfg1.N) (h0 : ¬t.val % 4 = 0) (h1 : t.val / 4 = t.val % 4) :
    (outsAt1 V c t.val t.isLt).2
      = k1_pay3 (k1_pay2 (iblk1 V c 0 t) (iblk1 V c 1 t) (prevAcc V c t)) (iblk1 V c 1 t) := by
  by_cases h2 : t.val % 4 = 3
  · exact (snd_of_eq (outsAt1_E V c t h0 h1 h2)).trans (sout1_E_eq (F := Ideal) ..)
  · exact (snd_of_eq (outsAt1_C V c t h0 h1 h2)).trans (sout1_C_eq (F := Ideal) ..)

/-- A later point of a row, off the diagonal: the inherited sum and the block product. -/
theorem acc_next_off (c : Dev nD) (t : Fin cfg1.N) (h0 : ¬t.val % 4 = 0) (h1 : ¬t.val / 4 = t.val % 4) :
    (outsAt1 V c t.val t.isLt).2 = k1_pay2 (iblk1 V c 0 t) (iblk1 V c 1 t) (prevAcc V c t) := by
  by_cases h2 : t.val % 4 = 3
  · exact (snd_of_eq (outsAt1_G V c t h0 h1 h2)).trans (sout1_G_eq (F := Ideal) ..)
  · exact (snd_of_eq (outsAt1_D V c t h0 h1 h2)).trans (sout1_D_eq (F := Ideal) ..)

/-- Last point of a row: the output block is the finished accumulator scaled by the column block, plus the bias row. -/
theorem out_last (c : Dev nD) (t : Fin cfg1.N) (h2 : t.val % 4 = 3) :
    (outsAt1 V c t.val t.isLt).1 = k1_pay4 (outsAt1 V c t.val t.isLt).2 (iblk1 V c 2 t) (iblk1 V c 3 t) := by
  have h0 : ¬t.val % 4 = 0 := by omega
  by_cases h1 : t.val / 4 = t.val % 4
  · rw [fst_of_eq (outsAt1_E V c t h0 h1 h2), snd_of_eq (outsAt1_E V c t h0 h1 h2), out1_E_eq (F := Ideal),
      sout1_E_eq (F := Ideal)]
  · rw [fst_of_eq (outsAt1_G V c t h0 h1 h2), snd_of_eq (outsAt1_G V c t h0 h1 h2), out1_G_eq (F := Ideal),
      sout1_G_eq (F := Ideal)]

/-! ## The four kinds of point, entry by entry -/

section Entry
variable (x0 : Vec Ideal S2048x2048 .f32) (x1 : Vec Ideal S2048x128 .f32)
  (A : Cert.Spec.SA.Idx → EReal) (T : Cert.Spec.SX.Idx → EReal) (r : Fin 2048) (cc : Fin 128) (i : Fin 8192) (kb : Fin 4)

/-- The block product at an entry is block `kb`'s part of row `i`'s sum, when the blocks' entries are the matrix's
    and the scaled features'. -/
theorem blockSum_of
    (hx0 : ∀ kk : Fin 2048, x0 (ix2 r kk) = A (ix2 i ⟨2048 * kb.val + kk.val, Cert.Acc.chunk_lt kb kk⟩))
    (hx1 : ∀ kk : Fin 2048, x1 (ix2 kk cc) = T (ix2 ⟨2048 * kb.val + kk.val, Cert.Acc.chunk_lt kb kk⟩ cc)) :
    ∑ kk : Fin 2048, x0 (ix2 r kk) * x1 (ix2 kk cc) = Cert.Acc.blockTerm A T i cc kb := by
  unfold Cert.Acc.blockTerm
  exact Finset.sum_congr rfl fun kk _ => by rw [hx0 kk, hx1 kk]

theorem firstDiag_val
    (hx0 : ∀ kk : Fin 2048, x0 (ix2 r kk) = A (ix2 i ⟨2048 * kb.val + kk.val, Cert.Acc.chunk_lt kb kk⟩))
    (hx1 : ∀ kk : Fin 2048, x1 (ix2 kk cc) = T (ix2 ⟨2048 * kb.val + kk.val, Cert.Acc.chunk_lt kb kk⟩ cc))
    (hs : x1 (ix2 r cc) = T (ix2 i cc)) :
    k1_pay3 (k1_pay2 x0 x1 (k1_pay1 (F := Ideal))) x1 (ix2 r cc)
      = (0 + Cert.Acc.blockTerm A T i cc kb) + T (ix2 i cc) := by
  rw [Cert.KernelIdeal.Pay.pay3_at, Cert.KernelIdeal.Pay.pay2_at, Cert.KernelIdeal.Pay.pay1_at,
    blockSum_of x0 x1 A T r cc i kb hx0 hx1, hs]

theorem firstOff_val
    (hx0 : ∀ kk : Fin 2048, x0 (ix2 r kk) = A (ix2 i ⟨2048 * kb.val + kk.val, Cert.Acc.chunk_lt kb kk⟩))
    (hx1 : ∀ kk : Fin 2048, x1 (ix2 kk cc) = T (ix2 ⟨2048 * kb.val + kk.val, Cert.Acc.chunk_lt kb kk⟩ cc)) :
    k1_pay2 x0 x1 (k1_pay1 (F := Ideal)) (ix2 r cc) = 0 + Cert.Acc.blockTerm A T i cc kb := by
  rw [Cert.KernelIdeal.Pay.pay2_at, Cert.KernelIdeal.Pay.pay1_at, blockSum_of x0 x1 A T r cc i kb hx0 hx1]

theorem nextDiag_val (xs : Vec Ideal S2048x128 .f32) (p : EReal) (hp : xs (ix2 r cc) = p)
    (hx0 : ∀ kk : Fin 2048, x0 (ix2 r kk) = A (ix2 i ⟨2048 * kb.val + kk.val, Cert.Acc.chunk_lt kb kk⟩))
    (hx1 : ∀ kk : Fin 2048, x1 (ix2 kk cc) = T (ix2 ⟨2048 * kb.val + kk.val, Cert.Acc.chunk_lt kb kk⟩ cc))
    (hs : x1 (ix2 r cc) = T (ix2 i cc)) :
    k1_pay3 (k1_pay2 x0 x1 xs) x1 (ix2 r cc) = (p + Cert.Acc.blockTerm A T i cc kb) + T (ix2 i cc) := by
  rw [Cert.KernelIdeal.Pay.pay3_at, Cert.KernelIdeal.Pay.pay2_at, blockSum_of x0 x1 A T r cc i kb hx0 hx1, hs, hp]

theorem nextOff_val (xs : Vec Ideal S2048x128 .f32) (p : EReal) (hp : xs (ix2 r cc) = p)
    (hx0 : ∀ kk : Fin 2048, x0 (ix2 r kk) = A (ix2 i ⟨2048 * kb.val + kk.val, Cert.Acc.chunk_lt kb kk⟩))
    (hx1 : ∀ kk : Fin 2048, x1 (ix2 kk cc) = T (ix2 ⟨2048 * kb.val + kk.val, Cert.Acc.chunk_lt kb kk⟩ cc)) :
    k1_pay2 x0 x1 xs (ix2 r cc) = p + Cert.Acc.blockTerm A T i cc kb := by
  rw [Cert.KernelIdeal.Pay.pay2_at, blockSum_of x0 x1 A T r cc i kb hx0 hx1, hp]

end Entry

/-! ## The accumulator after every point -/

/-- One point: if the point before (when there is one in the row) left the partial sum up to its block, this point
    leaves the partial sum up to its own. -/
theorem acc_at_point (c : Dev nD) (t : Fin cfg1.N) (r : Fin 2048) (cc : Fin 128) (i : Fin 8192) (ib : Fin 4)
    (hi : i.val = 2048 * (t.val / 4) + r.val) (hib : ib.val = t.val / 4)
    (ih : ¬t.val % 4 = 0 → prevAcc V c t (ix2 r cc)
        = Cert.Acc.partialAcc (Cert.Acc.blockTerm (V c main_arg1) (V c main_v3) i cc)
            ((V c main_v3 : S8192x128.Idx → EReal) (ix2 i cc)) ib (t.val % 4 - 1)) :
    (outsAt1 V c t.val t.isLt).2 (ix2 r cc)
      = Cert.Acc.partialAcc (Cert.Acc.blockTerm (V c main_arg1) (V c main_v3) i cc)
          ((V c main_v3 : S8192x128.Idx → EReal) (ix2 i cc)) ib (t.val % 4) := by
  have hk : t.val % 4 < 4 := Nat.mod_lt _ (by decide)
  have hx0 : ∀ kk : Fin 2048, (iblk1 V c 0 t : Vec Ideal S2048x2048 .f32) (ix2 r kk)
      = (V c main_arg1 : S8192x8192.Idx → EReal)
          (ix2 i ⟨2048 * (t.val % 4) + kk.val, Cert.Acc.chunk_lt ⟨t.val % 4, hk⟩ kk⟩) :=
    fun kk => iblk1_0_at V c t r kk _ hi rfl
  have hx1 : ∀ kk : Fin 2048, (iblk1 V c 1 t : Vec Ideal S2048x128 .f32) (ix2 kk cc)
      = (V c main_v3 : S8192x128.Idx → EReal)
          (ix2 ⟨2048 * (t.val % 4) + kk.val, Cert.Acc.chunk_lt ⟨t.val % 4, hk⟩ kk⟩ cc) :=
    fun kk => iblk1_1_at V c t kk cc _ rfl rfl
  rw [Cert.Acc.partialAcc_eq _ _ _ (t.val % 4) hk]
  unfold Cert.Acc.step
  by_cases h0 : t.val % 4 = 0
  · rw [if_pos h0]
    by_cases h1 : t.val / 4 = t.val % 4
    · have hs : (iblk1 V c 1 t : Vec Ideal S2048x128 .f32) (ix2 r cc) = (V c main_v3 : S8192x128.Idx → EReal) (ix2 i cc) :=
        iblk1_1_at V c t r cc _ (by show i.val = _; omega) rfl
      rw [if_pos (Fin.ext (hib.trans h1) : ib = ⟨t.val % 4, hk⟩), acc_first_diag V c t h0 h1]
      exact firstDiag_val (iblk1 V c 0 t) (iblk1 V c 1 t) (V c main_arg1) (V c main_v3) r cc i ⟨t.val % 4, hk⟩ hx0 hx1 hs
    · rw [if_neg (fun h => h1 (hib.symm.trans (congrArg Fin.val h)) : ¬ib = ⟨t.val % 4, hk⟩), acc_first_off V c t h0 h1]
      exact firstOff_val (iblk1 V c 0 t) (iblk1 V c 1 t) (V c main_arg1) (V c main_v3) r cc i ⟨t.val % 4, hk⟩ hx0 hx1
  · rw [if_neg h0]
    by_cases h1 : t.val / 4 = t.val % 4
    · have hs : (iblk1 V c 1 t : Vec Ideal S2048x128 .f32) (ix2 r cc) = (V c main_v3 : S8192x128.Idx → EReal) (ix2 i cc) :=
        iblk1_1_at V c t r cc _ (by show i.val = _; omega) rfl
      rw [if_pos (Fin.ext (hib.trans h1) : ib = ⟨t.val % 4, hk⟩), acc_next_diag V c t h0 h1]
      exact nextDiag_val (iblk1 V c 0 t) (iblk1 V c 1 t) (V c main_arg1) (V c main_v3) r cc i ⟨t.val % 4, hk⟩
        (prevAcc V c t) _ (ih h0) hx0 hx1 hs
    · rw [if_neg (fun h => h1 (hib.symm.trans (congrArg Fin.val h)) : ¬ib = ⟨t.val % 4, hk⟩), acc_next_off V c t h0 h1]
      exact nextOff_val (iblk1 V c 0 t) (iblk1 V c 1 t) (V c main_arg1) (V c main_v3) r cc i ⟨t.val % 4, hk⟩
        (prevAcc V c t) _ (ih h0) hx0 hx1

/-- After point `n` of the grid, entry `(r, cc)` of the accumulator is the partial sum, up to block `n % 4`, of row
    `2048 (n / 4) + r`: by induction on the point. -/
theorem acc_at (c : Dev nD) : ∀ (n : ℕ) (hn : n < cfg1.N) (r : Fin 2048) (cc : Fin 128) (i : Fin 8192) (ib : Fin 4),
    i.val = 2048 * (n / 4) + r.val → ib.val = n / 4 →
    (outsAt1 V c n hn).2 (ix2 r cc)
      = Cert.Acc.partialAcc (Cert.Acc.blockTerm (V c main_arg1) (V c main_v3) i cc)
          ((V c main_v3 : S8192x128.Idx → EReal) (ix2 i cc)) ib (n % 4) := by
  intro n
  induction n with
  | zero =>
    intro hn r cc i ib hi hib
    exact acc_at_point V c ⟨0, hn⟩ r cc i ib hi hib (fun h => absurd (Nat.zero_mod 4) h)
  | succ n ihn =>
    intro hn r cc i ib hi hib
    refine acc_at_point V c ⟨n + 1, hn⟩ r cc i ib hi hib (fun h0 => ?_)
    have h0' : ¬(n + 1) % 4 = 0 := h0
    have hprev := ihn (Nat.lt_of_succ_lt hn) r cc i ib (by omega) (by omega)
    show (outsAt1 V c n _).2 (ix2 r cc) = Cert.Acc.partialAcc _ _ ib ((n + 1) % 4 - 1)
    rw [show (n + 1) % 4 - 1 = n % 4 by omega]
    exact hprev

end Cert.KernelIdeal.Hand

end
-- ==== Proof.IdealValue1.lean ====
/-
  The layer region's result array, as one function of the arrays the region finds.

  The output block of block row ib is written back at the row's last point, 4 ib + 3, and only there. Entry (r, cc)
  of that block is then the whole sum of row i = 2048 ib + r of the adjacency matrix against column cc of the
  scaled features, taken block by block, plus the row's own scaled-feature entry, times the column's entry for row
  i, plus the bias entry for column cc. Row i of the result array lies in the block of the point 4 (i / 2048) + 3,
  so the four written blocks fill the array.
-/
import proofs.«103349_j29557964931202_1_alg».proof.Proof.IdealAcc1
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The output block at a row's last point, entry by entry: the finished row sum with the self-loop, scaled and
    shifted. -/
theorem out_at_last (c : Dev nD) (t : Fin cfg1.N) (h2 : t.val % 4 = 3) (r : Fin 2048) (cc : Fin 128) (i : Fin 8192)
    (hi : i.val = 2048 * (t.val / 4) + r.val) :
    (outsAt1 V c t.val t.isLt).1 (ix2 r cc)
      = Cert.Acc.blockOut (V c main_arg1) (V c main_v3) (V c main_v0) (V c main_v4) i cc := by
  have ht : t.val < 16 := Nat.lt_of_lt_of_eq t.isLt N_1
  rw [out_last V c t h2,
    Cert.KernelIdeal.Pay.pay4_at (outsAt1 V c t.val t.isLt).2 (iblk1 V c 2 t) (iblk1 V c 3 t) r cc,
    acc_at V c t.val t.isLt r cc i ⟨t.val / 4, by omega⟩ hi rfl, h2, Cert.Acc.partialAcc_three,
    iblk1_2_at V c t r (ix2 i (0 : Fin 1)) hi rfl, iblk1_3_at V c t cc (ix2 (0 : Fin 1) cc) rfl rfl]
  rfl

/-- The result array after the region. -/
theorem out_final (c : Dev nD)
    (A : Cert.Spec.SA.Idx → EReal) (T : Cert.Spec.SX.Idx → EReal) (Dc : S8192x1.Idx → EReal) (Br : S1x128.Idx → EReal)
    (hA : (V c main_arg1 : S8192x8192.Idx → EReal) = A) (hT : (V c main_v3 : S8192x128.Idx → EReal) = T)
    (hD : (V c main_v0 : S8192x1.Idx → EReal) = Dc) (hB : (V c main_v4 : S1x128.Idx → EReal) = Br) :
    ((dat1 (F := Ideal) V c).arrAt 4 cfg1.N : S8192x128.Idx → EReal)
      = fun y => ((∑ kb : Fin 4, ∑ kk : Fin 2048,
            A (ix2 (⟨(y 0).val, ValueIdx.idx2_lt0 y⟩ : Fin 8192) ⟨2048 * kb.val + kk.val, Cert.Acc.chunk_lt kb kk⟩)
              * T (ix2 ⟨2048 * kb.val + kk.val, Cert.Acc.chunk_lt kb kk⟩ (⟨(y 1).val, ValueIdx.idx2_lt1 y⟩ : Fin 128)))
          + T (ix2 (⟨(y 0).val, ValueIdx.idx2_lt0 y⟩ : Fin 8192) (⟨(y 1).val, ValueIdx.idx2_lt1 y⟩ : Fin 128)))
          * Dc (ix2 (⟨(y 0).val, ValueIdx.idx2_lt0 y⟩ : Fin 8192) (0 : Fin 1))
        + Br (ix2 (0 : Fin 1) (⟨(y 1).val, ValueIdx.idx2_lt1 y⟩ : Fin 128)) := by
  subst hA hT hD hB
  have flushed : ∀ t, (cfg1.win 4).flush t = true →
      (dat1 (F := Ideal) V c).flushed 4 t = ((cfg1.win 4).blk t).view.read (Elt Ideal)
        (fun y : S8192x128.Idx => Cert.Acc.blockOut (V c main_arg1) (V c main_v3) (V c main_v0) (V c main_v4)
          ⟨(y 0).val, ValueIdx.idx2_lt0 y⟩ ⟨(y 1).val, ValueIdx.idx2_lt1 y⟩) := by
    intro t hf
    have h2 : t.val % 4 = 3 := (flush1_4 t).mp hf
    show (cfg1.win 4).cut (grid1.coords t) ((dat1 V c).after 4 t) = _
    rw [after1_4]
    funext y
    have hy0 : (y 0).val < 2048 := (y 0).isLt
    have hy1 : (y 1).val < 128 := (y 1).isLt
    have ht : t.val < 16 := Nat.lt_of_lt_of_eq t.isLt N_1
    obtain ⟨-, -, -, -, -, -, -, -, e8, e9⟩ := blockIndex1 t
    have ey : (cfg1.win 4).xinj (grid1.coords t) y = ix2 (⟨(y 0).val, hy0⟩ : Fin 2048) (⟨(y 1).val, hy1⟩ : Fin 128) :=
      funext fun a => Fin.ext (by
        match a with
        | ⟨0, _⟩ => rfl
        | ⟨1, _⟩ => rfl)
    show (outsAt1 V c t.val t.isLt).1 ((cfg1.win 4).xinj (grid1.coords t) y)
      = Cert.Acc.blockOut (V c main_arg1) (V c main_v3) (V c main_v0) (V c main_v4)
          ⟨(((cfg1.win 4).blk t).view.emb y 0).val, _⟩ ⟨(((cfg1.win 4).blk t).view.emb y 1).val, _⟩
    rw [ey]
    refine (out_at_last V c t h2 ⟨(y 0).val, hy0⟩ ⟨(y 1).val, hy1⟩ ⟨2048 * (t.val / 4) + (y 0).val, by omega⟩ rfl).trans ?_
    have ei : (⟨2048 * (t.val / 4) + (y 0).val, by omega⟩ : Fin 8192)
        = ⟨(((cfg1.win 4).blk t).view.emb y 0).val, ValueIdx.idx2_lt0 _⟩ :=
      Fin.ext (by
        show 2048 * (t.val / 4) + (y 0).val = win1_4.index t 0 * 2048 + 1 * (y 0).val
        rw [e8]; omega)
    have ec : (⟨(y 1).val, hy1⟩ : Fin 128) = ⟨(((cfg1.win 4).blk t).view.emb y 1).val, ValueIdx.idx2_lt1 _⟩ :=
      Fin.ext (by
        show (y 1).val = win1_4.index t 1 * 128 + 1 * (y 1).val
        rw [e9]; omega)
    rw [ei, ec]
  refine (dat1 (F := Ideal) V c).arrAt_eq_of_cover 4 _ flushed fun i => ?_
  have hi0 : (i 0).val < 8192 := (i 0).isLt
  have hi1 : (i 1).val < 128 := (i 1).isLt
  obtain ⟨t0, ht0⟩ : ∃ t0 : Fin cfg1.N, t0.val = 4 * ((i 0).val / 2048) + 3 :=
    ⟨⟨4 * ((i 0).val / 2048) + 3, Nat.lt_of_lt_of_eq (by omega) N_1.symm⟩, rfl⟩
  obtain ⟨-, -, -, -, -, -, -, -, e8, e9⟩ := blockIndex1 t0
  refine ⟨t0, (flush1_4 t0).mpr (by omega), ?_⟩
  show i ∈ ((View.whole main_v5).slice (win1_4.rect t0)).set
  rw [View.set_slice_whole, Rect.mem_set_unit]
  intro a
  match a with
  | ⟨0, _⟩ =>
    show win1_4.index t0 0 * 2048 ≤ (i 0).val ∧ (i 0).val < win1_4.index t0 0 * 2048 + 2048
    rw [e8]; omega
  | ⟨1, _⟩ =>
    show win1_4.index t0 1 * 128 ≤ (i 1).val ∧ (i 1).val < win1_4.index t0 1 * 128 + 128
    rw [e9]; omega

end Cert.KernelIdeal.Hand

end
-- ==== Proof.RefAlgebra.lean ====
/-
  The algebra behind the reference's spelling of the graph-convolution layer, over an abstract finite index type.

  The reference forms the normalized adjacency entry by entry, d i · (A[i,k] + δ[i,k]) · d k, and contracts it with
  the projected features; the specification keeps the self-loop δ out of the sum. The two agree when every number
  involved is a real: the law is distributivity, which the extended reals have only away from the infinities. So it
  is proved on ℝ and carried to the extended reals through the coercion, which commutes with finite sums.

  Also here: a finite sum of reals is a real; the degree, its masked inverse square root and the projected features
  of the specification are reals when the arrays are; the row sum of A + I is the row sum of A plus one; and the
  comparison-and-select spelling of the mask is the specification's if-then-else.
-/
import proofs.«103349_j29557964931202_1_alg».proof.Proof.Spec
import Idealize.ShloMosaic.Lib.IdealHost

noncomputable section

namespace Cert.RefSide

open Idealize.ShloMosaic Idealize.ShloMosaic.ValueIdx
open scoped BigOperators

/-! ## Reals inside the extended reals -/

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is a real. -/
theorem real_sum {ι : Type} (s : Finset ι) (f : ι → EReal) (h : ∀ k, ∃ r : ℝ, f k = (r : EReal)) :
    ∃ r : ℝ, ∑ k ∈ s, f k = (r : EReal) := by
  choose g hg using h
  exact ⟨∑ k ∈ s, g k, by rw [coe_sum]; exact Finset.sum_congr rfl fun k _ => hg k⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- The word printed for the constant one is the number one. -/
theorem one_eq : Cert.Spec.one = 1 := Ideal.ofBits_one_f32

/-! ## The specification's pieces are reals when the arrays are -/

theorem deg_real (A : Cert.Spec.SA.Idx → EReal) (hA : ∀ j, ∃ r : ℝ, A j = (r : EReal)) (i : Fin 8192) :
    ∃ r : ℝ, Cert.Spec.deg A i = (r : EReal) := by
  obtain ⟨r, hr⟩ := real_sum Finset.univ (fun k : Fin 8192 => A (ix2 i k)) (fun k => hA _)
  refine ⟨r + 1, ?_⟩
  unfold Cert.Spec.deg
  rw [hr, one_eq, EReal.coe_add, EReal.coe_one]

theorem dinv_real (A : Cert.Spec.SA.Idx → EReal) (hA : ∀ j, ∃ r : ℝ, A j = (r : EReal)) (i : Fin 8192) :
    ∃ r : ℝ, Cert.Spec.dinv A i = (r : EReal) := by
  obtain ⟨r, hr⟩ := deg_real A hA i
  unfold Cert.Spec.dinv
  rw [hr]
  by_cases h : (0 : EReal) < (r : EReal)
  · have hr0 : 0 < r := by exact_mod_cast h
    rw [if_pos h, Ideal.rsqrt_coe, if_neg (not_lt.mpr hr0.le), if_neg hr0.ne']
    exact ⟨_, rfl⟩
  · rw [if_neg h]
    exact ⟨0, EReal.coe_zero.symm⟩

theorem sup_real (X : Cert.Spec.SX.Idx → EReal) (W : Cert.Spec.SW.Idx → EReal)
    (hX : ∀ j, ∃ r : ℝ, X j = (r : EReal)) (hW : ∀ j, ∃ r : ℝ, W j = (r : EReal)) (k : Fin 8192) (c : Fin 128) :
    ∃ r : ℝ, Cert.Spec.sup X W k c = (r : EReal) :=
  real_sum Finset.univ _ fun j => real_mul (hX _) (hW _)

/-! ## The row sum of A + I -/

/-- The identity's row sums to one: only the diagonal entry is not zero. -/
theorem eye_row_sum {ι : Type} [Fintype ι] [DecidableEq ι] (i : ι) :
    ∑ k : ι, (if i = k then (1 : EReal) else 0) = 1 := by
  rw [Finset.sum_ite_eq, if_pos (Finset.mem_univ _)]

/-- The reference's degree, a sum from zero over the row of A + I, is the row sum of A plus one. Addition of
    extended reals is commutative and associative, so no entry need be finite for this. -/
theorem row_sum_add_eye {ι : Type} [Fintype ι] [DecidableEq ι] (i : ι) (a : ι → EReal) :
    0 + ∑ k : ι, (a k + if i = k then (1 : EReal) else 0) = (∑ k : ι, a k) + 1 := by
  rw [zero_add, Finset.sum_add_distrib, eye_row_sum]

/-! ## The mask -/

/-- Selecting on the bit of the comparison "x is greater than zero" is the if-then-else on 0 < x. -/
theorem select_gt_zero (x a b : EReal) :
    Scalar.select (Ideal.cmp .ogt x 0) a b = if 0 < x then a else b := by
  unfold Ideal.cmp Scalar.select
  by_cases h : (0 : EReal) < x
  · simp [h]
  · simp [h]

/-! ## The law -/

/-- On the reals: contracting the normalized row d i · (a k + δ[i,k]) · d k with s takes the self-loop out of the
    sum as s i · d i, and the common factor d i out of everything. -/
theorem real_row_law {ι : Type} [Fintype ι] [DecidableEq ι] (i : ι) (a d s : ι → ℝ) :
    ∑ k : ι, ((d i * (a k + if i = k then 1 else 0)) * d k) * s k
      = ((∑ k : ι, a k * (s k * d k)) + s i * d i) * d i := by
  have h : ∀ k : ι, ((d i * (a k + if i = k then 1 else 0)) * d k) * s k
      = (a k * (s k * d k)) * d i + (if i = k then s k * d k * d i else 0) := by
    intro k
    split_ifs <;> ring
  simp only [h]
  rw [Finset.sum_add_distrib, Finset.sum_ite_eq, if_pos (Finset.mem_univ _), ← Finset.sum_mul]
  ring

/-- The same on the extended reals, for real-valued rows, with the bias added on both sides. -/
theorem row_law {ι : Type} [Fintype ι] [DecidableEq ι] (i : ι) (A D S : ι → EReal) (b : EReal)
    (hA : ∀ k, ∃ r : ℝ, A k = (r : EReal)) (hD : ∀ k, ∃ r : ℝ, D k = (r : EReal)) (hS : ∀ k, ∃ r : ℝ, S k = (r : EReal)) :
    (∑ k : ι, ((D i * (A k + if i = k then (1 : EReal) else 0)) * D k) * S k) + b
      = ((∑ k : ι, A k * (S k * D k)) + S i * D i) * D i + b := by
  choose a ha using hA
  choose d hd using hD
  choose s hs using hS
  have hE : ∀ k : ι, (if i = k then (1 : EReal) else 0) = (((if i = k then (1 : ℝ) else 0) : ℝ) : EReal) := by
    intro k
    split_ifs
    · exact EReal.coe_one.symm
    · exact EReal.coe_zero.symm
  simp only [ha, hd, hs, hE, ← EReal.coe_add, ← EReal.coe_mul, ← coe_sum]
  rw [real_row_law]

end Cert.RefSide

end
-- ==== Proof.RefRead.lean ====
/-
  The reference program read entry by entry, and identified with the specification.

  Stage by stage: the identity matrix is the comparison of the row number with the column number, converted to a
  number (one on the diagonal, zero off it); the degree is the row sum of A + I from zero; the masked inverse square
  root is a select on "degree > 0"; the normalized adjacency entry (i,k) is d i · (A[i,k] + δ[i,k]) · d k; the
  projected features are the contraction of X with W; the result is the contraction of the normalized adjacency with
  the projected features, plus the bias broadcast along the rows. With every entry of X, A and W a real, the row law
  turns this into the specification's form, where the self-loop stands outside the sum.
-/
import proofs.«103349_j29557964931202_1_alg».proof.Proof.Gen.ReferenceIdeal.Read
import proofs.«103349_j29557964931202_1_alg».proof.Proof.Spec
import proofs.«103349_j29557964931202_1_alg».proof.Proof.RefAlgebra

noncomputable section

namespace Cert.RefSide

open Cert.ReferenceIdeal Cert.ReferenceIdeal.Read Idealize.ShloMosaic Idealize.ShloMosaic.ValueIdx
open scoped BigOperators

/-! ## The identity matrix -/

/-- Two numbers below 8192 have the same 32-bit word only if they are equal. -/
theorem word_eq_iff (i k : Fin 8192) : BitVec.ofNat 32 i.val = BitVec.ofNat 32 k.val ↔ i = k := by
  constructor
  · intro h
    have h' := congrArg BitVec.toNat h
    simp only [BitVec.toNat_ofNat] at h'
    have hi := i.isLt
    have hk := k.isLt
    rw [Nat.mod_eq_of_lt (by omega), Nat.mod_eq_of_lt (by omega)] at h'
    exact Fin.ext h'
  · rintro rfl
    rfl

/-- The converted comparison "row number = column number" is one on the diagonal and zero off it. -/
theorem eye_at (i k : Fin 8192) : val_main_v5 (F := Ideal) (ix2 i k) = if i = k then (1 : EReal) else 0 := by
  show (((IntOp.cmpi .eq (IntOp.addi (BitVec.ofNat 32 i.val) 0#32) (BitVec.ofNat 32 k.val)).toNat : ℝ) : EReal) = _
  have h0 : IntOp.addi (BitVec.ofNat 32 i.val) 0#32 = BitVec.ofNat 32 i.val := BitVec.add_zero _
  rw [h0]
  by_cases h : i = k
  · rw [if_pos h, IntOp.cmpi_eq.2 ((word_eq_iff i k).2 h)]
    simp
  · rw [if_neg h, eq_zero_of_ne_one fun hc => h ((word_eq_iff i k).1 (IntOp.cmpi_eq.1 hc))]
    simp

/-- An entry of A + I. -/
theorem a_hat_at (x1 : Cert.Spec.SA.Idx → EReal) (i k : Fin 8192) :
    val_main_v6 (F := Ideal) x1 (ix2 i k) = x1 (ix2 i k) + if i = k then (1 : EReal) else 0 := by
  rw [val_main_v6_apply, eye_at]
  rfl

/-! ## The degree and its masked inverse square root -/

/-- The row sum of A + I is the specification's degree. -/
theorem deg_at (x1 : Cert.Spec.SA.Idx → EReal) (i : Fin 8192) :
    val_main_v7 (F := Ideal) x1 (ix1 i) = Cert.Spec.deg x1 i := by
  rw [val_main_v7_apply]
  have hidx : ∀ k : Fin 8192, idx_main_v7 (ix1 i) k = ix2 i k := fun k =>
    funext fun a => Fin.ext (by match a with | ⟨0, _⟩ => rfl | ⟨1, _⟩ => rfl)
  simp only [hidx, a_hat_at]
  show Ideal.ofBits .f32 0x00000000#32 + _ = _
  rw [Ideal.ofBits_zero_f32, row_sum_add_eye i (fun k => x1 (ix2 i k))]
  unfold Cert.Spec.deg
  rw [one_eq]

/-- The select on "degree > 0" between the inverse square root and zero is the specification's masked inverse
    square root. -/
theorem dinv_at (x1 : Cert.Spec.SA.Idx → EReal) (i : Fin 8192) :
    val_main_v11 (F := Ideal) x1 (ix1 i) = Cert.Spec.dinv x1 i := by
  rw [val_main_v11_apply, val_main_v9_apply, val_main_v10_apply, val_main_v8_apply, val_main_cst_0_apply,
    val_main_call0_v1_apply, val_main_call0_v0_apply, val_main_cst_1_apply, deg_at]
  show Scalar.select (Ideal.cmp .ogt (Cert.Spec.deg x1 i) (Ideal.ofBits .f32 0x00000000#32))
    (Ideal.rsqrt (Cert.Spec.deg x1 i)) (Ideal.ofBits .f32 0x00000000#32) = _
  rw [Ideal.ofBits_zero_f32, select_gt_zero]
  rfl

/-! ## The normalized adjacency and the projected features -/

/-- An entry of the normalized adjacency. -/
theorem adj_at (x1 : Cert.Spec.SA.Idx → EReal) (i k : Fin 8192) :
    val_main_v17 (F := Ideal) x1 (ix2 i k)
      = (Cert.Spec.dinv x1 i * (x1 (ix2 i k) + if i = k then (1 : EReal) else 0)) * Cert.Spec.dinv x1 k := by
  have hrow : idx_main_v12 (idx_main_v13 (ix2 i k)) = ix1 i :=
    funext fun a => Fin.ext (by match a with | ⟨0, _⟩ => rfl)
  have hcol : idx_main_v15 (idx_main_v16 (ix2 i k)) = ix1 k :=
    funext fun a => Fin.ext (by match a with | ⟨0, _⟩ => rfl)
  rw [val_main_v17_apply, val_main_v14_apply, val_main_v13_apply, val_main_v12_apply, val_main_v16_apply,
    val_main_v15_apply, hrow, hcol, dinv_at, dinv_at, a_hat_at]
  rfl

/-- An entry of the projected features. -/
theorem sup_at (x0 : Cert.Spec.SX.Idx → EReal) (x2 : Cert.Spec.SW.Idx → EReal) (k : Fin 8192) (c : Fin 128) :
    val_main_v18 (F := Ideal) x0 x2 (ix2 k c) = Cert.Spec.sup x0 x2 k c := by
  rw [val_main_v18_apply]
  unfold Cert.Spec.sup
  refine Finset.sum_congr rfl fun j _ => ?_
  have hl : lidx_main_v18 (ix2 k c) j = ix2 k j :=
    funext fun a => Fin.ext (by match a with | ⟨0, _⟩ => rfl | ⟨1, _⟩ => rfl)
  have hr : ridx_main_v18 (ix2 k c) j = ix2 j c :=
    funext fun a => Fin.ext (by match a with | ⟨0, _⟩ => rfl | ⟨1, _⟩ => rfl)
  rw [hl, hr]

/-- An entry of the contraction of the normalized adjacency with the projected features. -/
theorem agg_at (x0 : Cert.Spec.SX.Idx → EReal) (x1 : Cert.Spec.SA.Idx → EReal) (x2 : Cert.Spec.SW.Idx → EReal)
    (i : Fin 8192) (c : Fin 128) :
    val_main_v19 (F := Ideal) x0 x1 x2 (ix2 i c)
      = ∑ k : Fin 8192, ((Cert.Spec.dinv x1 i * (x1 (ix2 i k) + if i = k then (1 : EReal) else 0)) * Cert.Spec.dinv x1 k)
          * Cert.Spec.sup x0 x2 k c := by
  rw [val_main_v19_apply]
  refine Finset.sum_congr rfl fun k _ => ?_
  have hl : lidx_main_v19 (ix2 i c) k = ix2 i k :=
    funext fun a => Fin.ext (by match a with | ⟨0, _⟩ => rfl | ⟨1, _⟩ => rfl)
  have hr : ridx_main_v19 (ix2 i c) k = ix2 k c :=
    funext fun a => Fin.ext (by match a with | ⟨0, _⟩ => rfl | ⟨1, _⟩ => rfl)
  rw [hl, hr, adj_at, sup_at]

/-- The bias broadcast along the rows. -/
theorem bias_at (x3 : Cert.Spec.SB.Idx → EReal) (i : Fin 8192) (c : Fin 128) :
    val_main_v21 (F := Ideal) x3 (ix2 i c) = x3 (ix1 c) := by
  have hidx : idx_main_v20 (idx_main_v21 (ix2 i c)) = ix1 c :=
    funext fun a => Fin.ext (by match a with | ⟨0, _⟩ => rfl)
  rw [val_main_v21_apply, val_main_v20_apply, hidx]

/-! ## The reference is the specification -/

theorem ref_eq_G
    (x0 : Cert.Spec.SX.Idx → EReal) (x1 : Cert.Spec.SA.Idx → EReal) (x2 : Cert.Spec.SW.Idx → EReal) (x3 : Cert.Spec.SB.Idx → EReal)
    (h0 : ∀ j, ∃ r : ℝ, x0 j = (r : EReal)) (h1 : ∀ j, ∃ r : ℝ, x1 j = (r : EReal)) (h2 : ∀ j, ∃ r : ℝ, x2 j = (r : EReal)) :
    val_main_v22 (F := Ideal) x0 x1 x2 x3 = Cert.Spec.G x0 x1 x2 x3 := by
  funext y
  obtain ⟨i, c, rfl⟩ : ∃ (i : Fin 8192) (c : Fin 128), y = ix2 i c := ⟨y 0, y 1, eq_ix2 y⟩
  rw [val_main_v22_apply, agg_at, bias_at, Cert.Spec.G_ix2]
  exact row_law i (fun k => x1 (ix2 i k)) (Cert.Spec.dinv x1) (fun k => Cert.Spec.sup x0 x2 k c) (x3 (ix1 c))
    (fun k => h1 _) (dinv_real x1 h1) (fun k => sup_real x0 x2 h0 h2 k c)

end Cert.RefSide

end
-- ==== Proof.RefFinite.lean ====
/-
  From the precondition to "every entry of the four arrays is a real number".

  The precondition compares the absolute value of every entry of every array with +∞ and takes the conjunction of
  all the answers. If that conjunction is true, each comparison is, and an extended real whose absolute value is
  below +∞ is neither +∞ nor -∞: it is a real.
-/
import proofs.«103349_j29557964931202_1_alg».proof.Pre_finite_inputs
import proofs.«103349_j29557964931202_1_alg».proof.Proof.Spec
import Idealize.ShloMosaic.Lib.ReduceAll
import Idealize.ShloMosaic.Lib.IdealHost

noncomputable section

namespace Cert.RefSide

open Idealize.ShloMosaic Idealize.ShloMosaic.ValueIdx

/-- The rank-zero shape has one index. -/
instance subsingleton_scalar_idx : Subsingleton (⟨0, ![]⟩ : Shape).Idx := ⟨fun a b => funext fun d => d.elim0⟩

/-- The word the precondition compares against is +∞. -/
theorem inf_word : Ideal.ofBits .f32 0x7F800000#32 = ⊤ := by simp [Ideal.ofBits, Ideal.ieee]

/-- An extended real whose absolute value is below +∞ is a real. -/
theorem real_of_abs_lt_top (x : EReal) (h : Ideal.cmp .olt (max x (-x)) (Ideal.ofBits .f32 0x7F800000#32) = 1#1) :
    ∃ r : ℝ, x = (r : EReal) := by
  rw [inf_word] at h
  have h' : max x (-x) < ⊤ := by
    unfold Ideal.cmp at h
    by_contra hn
    simp [hn] at h
  induction x using EReal.rec with
  | bot => simp at h'
  | coe r => exact ⟨r, rfl⟩
  | top => simp at h'

/-- One array's part of the precondition: if the conjunction over all entries of "|x| < +∞" is true, every entry
    is a real. -/
theorem real_of_all {S : Shape} {axes : List (Fin S.rank)} (hb : (⟨0, ![]⟩ : Shape).BroadcastsInDim S ![])
    (hr : S.ReducesTo axes ⟨0, ![]⟩) (hu : 0 < (⟨0, ![]⟩ : Shape).numel) (x : S.Idx → EReal)
    (h : Host.reduce IntOp.andi
          (cmpf .olt (Host.absf (F := Ideal) (φ := .f32) x)
            (broadcastInDim S ![] hb (constant (F := Ideal) ⟨0, ![]⟩ .f32 0x7F800000#32)))
          (constantI ⟨0, ![]⟩ 1 1#1) hr hu ix0 = 1#1) (j : S.Idx) :
    ∃ r : ℝ, x j = (r : EReal) := by
  have hj := Host.reduce_andi_all _ _ hr hu ix0 h j
  refine real_of_abs_lt_top (x j) ?_
  rw [cmpf_apply, broadcastInDim_scalar_apply] at hj
  exact hj

theorem finite_of_pre [Cert.Pre_finite_inputs.Facts]
    (x0 : Cert.Spec.SX.Idx → EReal) (x1 : Cert.Spec.SA.Idx → EReal) (x2 : Cert.Spec.SW.Idx → EReal) (x3 : Cert.Spec.SB.Idx → EReal)
    (h : Cert.Pre_finite_inputs.fn (F := Ideal) x0 x1 x2 x3 = fun _ => 1#1) :
    (∀ j, ∃ r : ℝ, x0 j = (r : EReal)) ∧ (∀ j, ∃ r : ℝ, x1 j = (r : EReal)) ∧ (∀ j, ∃ r : ℝ, x2 j = (r : EReal))
      ∧ (∀ j, ∃ r : ℝ, x3 j = (r : EReal)) := by
  have h1 := congrFun h ix0
  dsimp only [Cert.Pre_finite_inputs.fn, Cert.Pre_finite_inputs.fn_part1] at h1
  obtain ⟨h13, h17⟩ := IntOp.andi_eq_one.1 h1
  obtain ⟨h8, h12⟩ := IntOp.andi_eq_one.1 h13
  obtain ⟨h3, h7⟩ := IntOp.andi_eq_one.1 h8
  exact ⟨real_of_all _ _ _ x0 h3, real_of_all _ _ _ x1 h7, real_of_all _ _ _ x2 h12, real_of_all _ _ _ x3 h17⟩

end Cert.RefSide

end
-- ==== Proof.lean ====
/-
  The certificate of the graph-convolution layer: the Pallas kernel program against its jnp reference.

  Both programs compute, for node features X, an adjacency matrix A, weights W and a bias b,
      out = D (A + I) D (X W) + b,     D = diag (rowsum (A + I))^(-1/2), masked where the row sum is not positive.
  The kernel never forms the normalized matrix: a first Pallas call sums A's rows into the column d = D's diagonal,
  the host scales the projected features X W by d row by row, and a second Pallas call accumulates A times the scaled
  features block by block over a 4 × 4 grid, adds the scaled features' own block on the diagonal (the self-loop I),
  and at the end of each row of blocks scales by d and adds b. On the extended reals, with finite inputs, the two are
  one function: d is a real, so the factor d_i distributes over the row's sum, and (A + I) splits the sum in two.

  The three frames: the two kernel programs' runs are followed through their three segments with every unscoped buffer's
  contents named, so the arguments end as launched; the reference's frame is its run with the result dropped. The
  idealization rewrote nothing, so `preserves` is trivial. The value claim joins the kernel's named result with the
  reference's run through the shared specification `Cert.Spec.G`.
-/
import proofs.«103349_j29557964931202_1_alg».proof.Defs
import proofs.«103349_j29557964931202_1_alg».proof.Proof.Gen.Kernel
import proofs.«103349_j29557964931202_1_alg».proof.Proof.Gen.KernelIdeal
import proofs.«103349_j29557964931202_1_alg».proof.Proof.Gen.ReferenceIdeal
import proofs.«103349_j29557964931202_1_alg».proof.Proof.Gen.Pre_finite_inputs
import proofs.«103349_j29557964931202_1_alg».proof.Proof.Gen.ReferenceIdeal.Run
import proofs.«103349_j29557964931202_1_alg».proof.Proof.Gen.ReferenceIdeal.Read
import proofs.«103349_j29557964931202_1_alg».proof.Proof.BitsRun
import proofs.«103349_j29557964931202_1_alg».proof.Proof.IdealRun
import proofs.«103349_j29557964931202_1_alg».proof.Proof.IdealStage
import proofs.«103349_j29557964931202_1_alg».proof.Proof.IdealValue1
import proofs.«103349_j29557964931202_1_alg».proof.Proof.RefRead
import proofs.«103349_j29557964931202_1_alg».proof.Proof.RefFinite
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories agreeing on the arguments, of which the precondition makes every entry a real
    number, both programs end with the layer's output `Cert.Spec.G` of the arguments: the kernel's result array is what
    its second region's write-backs leave, which is `G`; the reference's composed term is `G` under finiteness. -/
theorem algebraic : Cert.algebraic_KernelIdeal_ReferenceIdeal := by
  intro m ρ m' ρ' hpre hagree
  have hf := fun c => Cert.RefSide.finite_of_pre _ _ _ _ (hpre c)
  refine ⟨fun c => Cert.Spec.G (Cert.KernelIdeal.Hand.argX m c) (Cert.KernelIdeal.Hand.argA m c) (Cert.KernelIdeal.Hand.argW m c) (Cert.KernelIdeal.Hand.argB m c), ?_, ?_⟩
  · exact (θ_run Cert.KernelIdeal.defs _ _).mono
      (fun _ h c => ⟨(h c).1.trans (Cert.KernelIdeal.Hand.kernel_result m ρ c
          (fun A T Dc Br => Cert.KernelIdeal.Hand.out_final (Cert.KernelIdeal.Hand.V2 m ρ) c A T Dc Br)), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v22_eq _ _ _ _).trans
      (Cert.RefSide.ref_eq_G _ _ _ _ (hf c).1 (hf c).2.1 (hf c).2.2.1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
